-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v106) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x1600000 : Shape := ⟨2, ![2, 1600000]⟩
abbrev S1600000 : Shape := ⟨1, ![1600000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S1 .f32) (main_v33 : IVec S_ 1) : IVec S_ 1 :=
  let main_v34 : FVec F S1 .f32 := Host.absf main_arg8
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg5 : FVec F S64x64 .f32) (main_arg6 : FVec F S64 .f32) (main_arg7 : FVec F S64x1 .f32) (main_arg8 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x1 .f32 := Host.absf main_arg7
  let main_cst_10 : FVec F S_ .f32 := constant S_ .f32 0x7F800000#32
  let main_v30 : FVec F S64x1 .f32 := broadcastInDim S64x1 ![] bcast_S_S64x1 main_cst_10
  let main_v31 : IVec S64x1 1 := cmpf .olt main_v29 main_v30
  let main_c_11 : IVec S_ 1 := constantI S_ 1 1#1
  let main_v32 : IVec S_ 1 := (fun x v => Host.reduce IntOp.andi x v reducesTo_S64x1_S_d0_1 h_S_) main_v31 main_c_11
  let main_v33 : IVec S_ 1 := andi main_v28 main_v32
  fn_part2 (F := F) main_arg8 main_v33

def fn {F : FTy → Type} [FloatOps F] (main_arg0 : FVec F S50000x128 .f32) (main_arg1 : IVec S2x1600000 32) (main_arg2 : FVec F S1600000 .f32) (main_arg3 : FVec F S128x64 .f32) (main_arg4 : FVec F S64 .f32) (main_arg5 : FVec F S64x64 .f32) (main_arg6 : FVec F S64 .f32) (main_arg7 : FVec F S64x1 .f32) (main_arg8 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_v13 main_v16
-- ==== Kernel.lean ====
abbrev S50000x128 : Shape := ⟨2, ![50000, 128]⟩
abbrev S2x1600000 : Shape := ⟨2, ![2, 1600000]⟩
abbrev S1600000 : Shape := ⟨1, ![1600000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x1600000 : Shape := ⟨2, ![1, 1600000]⟩
abbrev S50000 : Shape := ⟨1, ![50000]⟩
abbrev S1650000 : Shape := ⟨1, ![1650000]⟩
abbrev S_ : Shape := ⟨0, ![]⟩
abbrev S1650000x1 : Shape := ⟨2, ![1650000, 1]⟩
abbrev S50000x64 : Shape := ⟨2, ![50000, 64]⟩
abbrev S2000x128 : Shape := ⟨2, ![2000, 128]⟩
abbrev S2000x64 : Shape := ⟨2, ![2000, 64]⟩
abbrev S1650000x64 : Shape := ⟨2, ![1650000, 64]⟩
abbrev S1x64 : Shape := ⟨2, ![1, 64]⟩
abbrev S1x1 : Shape := ⟨2, ![1, 1]⟩
abbrev S50000x1 : Shape := ⟨2, ![50000, 1]⟩
abbrev S2000x1 : Shape := ⟨2, ![2000, 1]⟩

abbrev nBuf : Space → Nat
  | .hbm => 92
  | .vmem => 26
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S1600000, .f32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x1, .f32⟩
  | .hbm, ⟨8, _⟩ => ⟨S1, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S50000, .i32⟩
  | .hbm, ⟨14, _⟩ => ⟨S1650000, .i32⟩
  | .hbm, ⟨15, _⟩ => ⟨S1650000, .i32⟩
  | .hbm, ⟨16, _⟩ => ⟨S_, .f32⟩
  | .hbm, ⟨17, _⟩ => ⟨S50000, .f32⟩
  | .hbm, ⟨18, _⟩ => ⟨S1650000, .f32⟩
  | .hbm, ⟨19, _⟩ => ⟨S_, .f32⟩
  | .hbm, ⟨20, _⟩ => ⟨S50000, .f32⟩
  | .hbm, ⟨21, _⟩ => ⟨S1650000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .i1⟩
  | .hbm, ⟨26, _⟩ => ⟨S50000, .f32⟩
  | .hbm, ⟨27, _⟩ => ⟨S_, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S_, .i32⟩
  | .hbm, ⟨32, _⟩ => ⟨S1650000, .i32⟩
  | .hbm, ⟨33, _⟩ => ⟨S1650000, .i1⟩
  | .hbm, ⟨34, _⟩ => ⟨S_, .i32⟩
  | .hbm, ⟨35, _⟩ => ⟨S1650000, .i32⟩
  | .hbm, ⟨36, _⟩ => ⟨S1650000, .i32⟩
  | .hbm, ⟨37, _⟩ => ⟨S1650000, .i32⟩
  | .hbm, ⟨38, _⟩ => ⟨S1650000x1, .i32⟩
  | .hbm, ⟨39, _⟩ => ⟨S1650000, .f32⟩
  | .hbm, ⟨40, _⟩ => ⟨S1650000, .f32⟩
  | .hbm, ⟨41, _⟩ => ⟨S_, .i32⟩
  | .hbm, ⟨42, _⟩ => ⟨S1650000, .i32⟩
  | .hbm, ⟨43, _⟩ => ⟨S1650000, .i1⟩
  | .hbm, ⟨44, _⟩ => ⟨S_, .i32⟩
  | .hbm, ⟨45, _⟩ => ⟨S1650000, .i32⟩
  | .hbm, ⟨46, _⟩ => ⟨S1650000, .i32⟩
  | .hbm, ⟨47, _⟩ => ⟨S1650000, .i32⟩
  | .hbm, ⟨48, _⟩ => ⟨S1650000x1, .i32⟩
  | .hbm, ⟨49, _⟩ => ⟨S1650000, .f32⟩
  | .hbm, ⟨50, _⟩ => ⟨S1650000, .f32⟩
  | .hbm, ⟨51, _⟩ => ⟨S50000x64, .f32⟩
  | .hbm, ⟨52, _⟩ => ⟨S_, .i32⟩
  | .hbm, ⟨53, _⟩ => ⟨S1650000, .i32⟩
  | .hbm, ⟨54, _⟩ => ⟨S1650000, .i1⟩
  | .hbm, ⟨55, _⟩ => ⟨S_, .i32⟩
  | .hbm, ⟨56, _⟩ => ⟨S1650000, .i32⟩
  | .hbm, ⟨57, _⟩ => ⟨S1650000, .i32⟩
  | .hbm, ⟨58, _⟩ => ⟨S1650000, .i32⟩
  | .hbm, ⟨59, _⟩ => ⟨S1650000x1, .i32⟩
  | .hbm, ⟨60, _⟩ => ⟨S1650000x64, .f32⟩
  | .hbm, ⟨61, _⟩ => ⟨S1650000x1, .f32⟩
  | .hbm, ⟨62, _⟩ => ⟨S1650000x64, .f32⟩
  | .hbm, ⟨63, _⟩ => ⟨S1650000x64, .f32⟩
  | .hbm, ⟨64, _⟩ => ⟨S_, .f32⟩
  | .hbm, ⟨65, _⟩ => ⟨S50000x64, .f32⟩
  | .hbm, ⟨66, _⟩ => ⟨S1650000x1, .i32⟩
  | .hbm, ⟨67, _⟩ => ⟨S50000x64, .f32⟩
  | .hbm, ⟨68, _⟩ => ⟨S1x64, .f32⟩
  | .hbm, ⟨69, _⟩ => ⟨S50000x64, .f32⟩
  | .hbm, ⟨70, _⟩ => ⟨S50000x64, .f32⟩
  | .hbm, ⟨71, _⟩ => ⟨S_, .i32⟩
  | .hbm, ⟨72, _⟩ => ⟨S1650000, .i32⟩
  | .hbm, ⟨73, _⟩ => ⟨S1650000, .i1⟩
  | .hbm, ⟨74, _⟩ => ⟨S_, .i32⟩
  | .hbm, ⟨75, _⟩ => ⟨S1650000, .i32⟩
  | .hbm, ⟨76, _⟩ => ⟨S1650000, .i32⟩
  | .hbm, ⟨77, _⟩ => ⟨S1650000, .i32⟩
  | .hbm, ⟨78, _⟩ => ⟨S1650000x1, .i32⟩
  | .hbm, ⟨79, _⟩ => ⟨S1650000x64, .f32⟩
  | .hbm, ⟨80, _⟩ => ⟨S1650000x1, .f32⟩
  | .hbm, ⟨81, _⟩ => ⟨S1650000x64, .f32⟩
  | .hbm, ⟨82, _⟩ => ⟨S1650000x64, .f32⟩
  | .hbm, ⟨83, _⟩ => ⟨S_, .f32⟩
  | .hbm, ⟨84, _⟩ => ⟨S50000x64, .f32⟩
  | .hbm, ⟨85, _⟩ => ⟨S1650000x1, .i32⟩
  | .hbm, ⟨86, _⟩ => ⟨S50000x64, .f32⟩
  | .hbm, ⟨87, _⟩ => ⟨S1x64, .f32⟩
  | .hbm, ⟨88, _⟩ => ⟨S50000x64, .f32⟩
  | .hbm, ⟨89, _⟩ => ⟨S1x1, .f32⟩
  | .hbm, ⟨90, _⟩ => ⟨S50000x1, .f32⟩
  | .hbm, ⟨91, _⟩ => ⟨S50000, .f32⟩
  | .local _ .vmem, ⟨0, _⟩ => ⟨S2000x128, .f32⟩
  | .local _ .vmem, ⟨1, _⟩ => ⟨S2000x128, .f32⟩
  | .local _ .vmem, ⟨2, _⟩ => ⟨S128x64, .f32⟩
  | .local _ .vmem, ⟨3, _⟩ => ⟨S2000x64, .f32⟩
  | .local _ .vmem, ⟨4, _⟩ => ⟨S2000x64, .f32⟩
  | .local _ .vmem, ⟨5, _⟩ => ⟨S2000x64, .f32⟩
  | .local _ .vmem, ⟨6, _⟩ => ⟨S2000x64, .f32⟩
  | .local _ .vmem, ⟨7, _⟩ => ⟨S1x64, .f32⟩
  | .local _ .vmem, ⟨8, _⟩ => ⟨S2000x64, .f32⟩
  | .local _ .vmem, ⟨9, _⟩ => ⟨S2000x64, .f32⟩
  | .local _ .vmem, ⟨10, _⟩ => ⟨S2000x64, .f32⟩
  | .local _ .vmem, ⟨11, _⟩ => ⟨S2000x64, .f32⟩
  | .local _ .vmem, ⟨12, _⟩ => ⟨S64x64, .f32⟩
  | .local _ .vmem, ⟨13, _⟩ => ⟨S2000x64, .f32⟩
  | .local _ .vmem, ⟨14, _⟩ => ⟨S2000x64, .f32⟩
  | .local _ .vmem, ⟨15, _⟩ => ⟨S2000x64, .f32⟩
  | .local _ .vmem, ⟨16, _⟩ => ⟨S2000x64, .f32⟩
  | .local _ .vmem, ⟨17, _⟩ => ⟨S1x64, .f32⟩
  | .local _ .vmem, ⟨18, _⟩ => ⟨S2000x64, .f32⟩
  | .local _ .vmem, ⟨19, _⟩ => ⟨S2000x64, .f32⟩
  | .local _ .vmem, ⟨20, _⟩ => ⟨S2000x64, .f32⟩
  | .local _ .vmem, ⟨21, _⟩ => ⟨S2000x64, .f32⟩
  | .local _ .vmem, ⟨22, _⟩ => ⟨S64x1, .f32⟩
  | .local _ .vmem, ⟨23, _⟩ => ⟨S1x1, .f32⟩
  | .local _ .vmem, ⟨24, _⟩ => ⟨S2000x1, .f32⟩
  | .local _ .vmem, ⟨25, _⟩ => ⟨S2000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_4 : Ref sig .tc := ⟨.hbm, 41, rfl⟩
abbrev main_v24 : Ref sig .tc := ⟨.hbm, 42, rfl⟩
abbrev main_v25 : Ref sig .tc := ⟨.hbm, 43, rfl⟩
abbrev main_c_5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_6 : Ref sig .tc := ⟨.hbm, 52, rfl⟩
abbrev main_v33 : Ref sig .tc := ⟨.hbm, 53, rfl⟩
abbrev main_v34 : Ref sig .tc := ⟨.hbm, 54, rfl⟩
abbrev main_c_7 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_8 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_c_9 : Ref sig .tc := ⟨.hbm, 71, rfl⟩
abbrev main_v49 : Ref sig .tc := ⟨.hbm, 72, rfl⟩
abbrev main_v50 : Ref sig .tc := ⟨.hbm, 73, rfl⟩
abbrev main_c_10 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_11 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg3_0 : Ref sig .tc := ⟨.vmem, 24, rfl⟩
abbrev cc4_stg3_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem3_0 : DmaSem sig := 24
abbrev cc4_sem3_1 : DmaSem sig := 25

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x1 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x1 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S2000x1 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S50000_S1650000_d0 : Shape.Concatenates [S1600000, S50000] S1650000 0
  bcast_S_S50000 : S_.BroadcastsInDim S50000 (![] : Fin 0 → Fin S50000.rank)
  bcast_S1650000_S1650000x1_0 : S1650000.BroadcastsInDim S1650000x1 (![0] : Fin 1 → Fin S1650000x1.rank)
  bcast_S_S1650000 : S_.BroadcastsInDim S1650000 (![] : Fin 0 → Fin S1650000.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  bcast_S1650000x1_S1650000x64_0_1 : S1650000x1.BroadcastsInDim S1650000x64 (![0, 1] : Fin 2 → Fin S1650000x64.rank)
  bcast_S_S50000x64 : S_.BroadcastsInDim S50000x64 (![] : Fin 0 → Fin S50000x64.rank)
  shapeCasts_S64_S1x64 : S64.ShapeCasts S1x64
  shapeCasts_S2000x64_S2000x64 : S2000x64.ShapeCasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x64_S64x64_0_0 : ∀ a, (![0, 0] : Fin 2 → Nat) a + S64x64.size a ≤ S64x64.size a
  h_S64x64 : 0 < S64x64.numel
  shapeCasts_S1_S1x1 : S1.ShapeCasts S1x1
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  inb_S2000x1_S2000x1_0_0 : ∀ a, (![0, 0] : Fin 2 → Nat) a + S2000x1.size a ≤ S2000x1.size a
  h_S2000x1 : 0 < S2000x1.numel
  shapeCasts_S50000x1_S50000 : S50000x1.ShapeCasts S50000
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S2000x128_S128x64_S2000x64_1_0_0_1_n_n_wf : DotDims.WF S2000x128 S128x64 S2000x64 [1] [0] [0] [1] [] []
  gather_S50000x64_S1650000x1_S1650000x64_1_0_n_n_0_1_164_wf : GatherDims.WF S50000x64 S1650000x1 S1650000x64 [1] [0] [] [0] [] 1 ![1, 64]
  scatter_S50000x64_S1650000x1_S1650000x64_1_0_0_1_wf : ScatterDims.WF S50000x64 S1650000x1 S1650000x64 [1] [0] [0] 1
  dot_S2000x64_S64x64_S2000x64_1_0_0_1_n_n_wf : DotDims.WF S2000x64 S64x64 S2000x64 [1] [0] [0] [1] [] []
  dot_S2000x64_S64x1_S2000x1_1_0_0_1_n_n_wf : DotDims.WF S2000x64 S64x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S50000x64.size a
  hwx0_2 : ∀ i : grid0.Coords, EltTy.bits .f32 = 32 ∨ (Rect.block (s := S50000x64) S2000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S50000x64.size a
  hwx1_0 : ∀ i : grid1.Coords, EltTy.bits .f32 = 32 ∨ (Rect.block (s := S50000x64) S2000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x64.size a ≤ S50000x64.size a
  hwx1_2 : ∀ i : grid1.Coords, EltTy.bits .f32 = 32 ∨ (Rect.block (s := S50000x64) S2000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S50000x64.size a
  hwx2_0 : ∀ i : grid2.Coords, EltTy.bits .f32 = 32 ∨ (Rect.block (s := S50000x64) S2000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x64.size a ≤ S50000x64.size a
  hwx2_2 : ∀ i : grid2.Coords, EltTy.bits .f32 = 32 ∨ (Rect.block (s := S50000x64) S2000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S50000x64.size a
  hwx3_0 : ∀ i : grid3.Coords, EltTy.bits .f32 = 32 ∨ (Rect.block (s := S50000x64) S2000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x64.size a ≤ S50000x64.size a
  hwx3_2 : ∀ i : grid3.Coords, EltTy.bits .f32 = 32 ∨ (Rect.block (s := S50000x64) S2000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x64.size a ≤ S50000x64.size a
  hwx4_0 : ∀ i : grid4.Coords, EltTy.bits .f32 = 32 ∨ (Rect.block (s := S50000x64) S2000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x1.size a ≤ S64x1.size a
  hwx4_1 : ∀ i : grid4.Coords, EltTy.bits .f32 = 32 ∨ (Rect.block (s := S64x1) S64x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x1.size a ≤ S1x1.size a
  hwx4_2 : ∀ i : grid4.Coords, EltTy.bits .f32 = 32 ∨ (Rect.block (s := S1x1) S1x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x1.size a ≤ S50000x1.size a
  hwx4_3 : ∀ i : grid4.Coords, EltTy.bits .f32 = 32 ∨ (Rect.block (s := S50000x1) S2000x1.size (cc4_transform_3 i) (hinb4_3 i)).WholeWords (EltTy.packing .f32)

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S50000x64_S1650000x1_S1650000x64_1_0_n_n_0_1_164 : GatherDims S50000x64 S1650000x1 S1650000x64 where
  offsetDims := [1]
  collapsedSliceDims := [0]
  operandBatchingDims := []
  startIndicesBatchingDims := []
  startIndexMap := [0]
  indexVectorDim := 1
  sliceSizes := ![1, 64]
  wf := gather_S50000x64_S1650000x1_S1650000x64_1_0_n_n_0_1_164_wf
def scatter_S50000x64_S1650000x1_S1650000x64_1_0_0_1 : ScatterDims S50000x64 S1650000x1 S1650000x64 where
  updateWindowDims := [1]
  insertedWindowDims := [0]
  scatterDimsToOperandDims := [0]
  indexVectorDim := 1
  wf := scatter_S50000x64_S1650000x1_S1650000x64_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def dot_S2000x64_S64x1_S2000x1_1_0_0_1_n_n : DotDims S2000x64 S64x1 S2000x1 where
  lhsContracting := [1]
  rhsContracting := [0]
  lhsNonContracting := [0]
  rhsNonContracting := [1]
  lhsBatch := []
  rhsBatch := []
  wf := dot_S2000x64_S64x1_S2000x1_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S2000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S2000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S2000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S2000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v63) S2000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S64x1.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v64) S1x1.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v65) S2000x1.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x1600000 : Shape := ⟨2, ![2, 1600000]⟩
abbrev S1600000 : Shape := ⟨1, ![1600000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x1600000 : Shape := ⟨2, ![1, 1600000]⟩
abbrev S50000 : Shape := ⟨1, ![50000]⟩
abbrev S1650000 : Shape := ⟨1, ![1650000]⟩
abbrev S_ : Shape := ⟨0, ![]⟩
abbrev S1650000x1 : Shape := ⟨2, ![1650000, 1]⟩
abbrev S50000x64 : Shape := ⟨2, ![50000, 64]⟩
abbrev S1650000x64 : Shape := ⟨2, ![1650000, 64]⟩
abbrev S1x64 : Shape := ⟨2, ![1, 64]⟩
abbrev S50000x1 : Shape := ⟨2, ![50000, 1]⟩
abbrev S1x1 : Shape := ⟨2, ![1, 1]⟩

abbrev nBuf : Space → Nat
  | .hbm => 148
  | .vmem => 0
  | .smem => 0
  | _ => 0

abbrev hbmTy0_0 (i : Nat) : BufTy := match i % 128 with
  | 0 => ⟨S50000x128, .f32⟩
  | 1 => ⟨S2x1600000, .i32⟩
  | 2 => ⟨S1600000, .f32⟩
  | 3 => ⟨S128x64, .f32⟩
  | 4 => ⟨S64, .f32⟩
  | 5 => ⟨S64x64, .f32⟩
  | 6 => ⟨S64, .f32⟩
  | 7 => ⟨S64x1, .f32⟩
  | 8 => ⟨S1, .f32⟩
  | 9 => ⟨S1x1600000, .i32⟩
  | 10 => ⟨S1600000, .i32⟩
  | 11 => ⟨S1x1600000, .i32⟩
  | 12 => ⟨S1600000, .i32⟩
  | 13 => ⟨S50000, .i32⟩
  | 14 => ⟨S1650000, .i32⟩
  | 15 => ⟨S1650000, .i32⟩
  | 16 => ⟨S_, .f32⟩
  | 17 => ⟨S50000, .f32⟩
  | 18 => ⟨S1650000, .f32⟩
  | 19 => ⟨S_, .f32⟩
  | 20 => ⟨S50000, .f32⟩
  | 21 => ⟨S1650000x1, .i32⟩
  | 22 => ⟨S50000, .f32⟩
  | 23 => ⟨S_, .f32⟩
  | 24 => ⟨S50000, .f32⟩
  | 25 => ⟨S50000, .i1⟩
  | 26 => ⟨S50000, .f32⟩
  | 27 => ⟨S_, .f32⟩
  | 28 => ⟨S_, .f32⟩
  | 29 => ⟨S50000, .f32⟩
  | 30 => ⟨S50000, .f32⟩
  | 31 => ⟨S_, .i32⟩
  | 32 => ⟨S1650000, .i32⟩
  | 33 => ⟨S1650000, .i1⟩
  | 34 => ⟨S_, .i32⟩
  | 35 => ⟨S1650000, .i32⟩
  | 36 => ⟨S1650000, .i32⟩
  | 37 => ⟨S1650000, .i32⟩
  | 38 => ⟨S1650000x1, .i32⟩
  | 39 => ⟨S1650000, .f32⟩
  | 40 => ⟨S1650000, .f32⟩
  | 41 => ⟨S_, .i32⟩
  | 42 => ⟨S1650000, .i32⟩
  | 43 => ⟨S1650000, .i1⟩
  | 44 => ⟨S_, .i32⟩
  | 45 => ⟨S1650000, .i32⟩
  | 46 => ⟨S1650000, .i32⟩
  | 47 => ⟨S1650000, .i32⟩
  | 48 => ⟨S1650000x1, .i32⟩
  | 49 => ⟨S1650000, .f32⟩
  | 50 => ⟨S1650000, .f32⟩
  | 51 => ⟨S50000x64, .f32⟩
  | 52 => ⟨S_, .i32⟩
  | 53 => ⟨S1650000, .i32⟩
  | 54 => ⟨S1650000, .i1⟩
  | 55 => ⟨S_, .i32⟩
  | 56 => ⟨S1650000, .i32⟩
  | 57 => ⟨S1650000, .i32⟩
  | 58 => ⟨S1650000, .i32⟩
  | 59 => ⟨S1650000x1, .i32⟩
  | 60 => ⟨S1650000x64, .f32⟩
  | 61 => ⟨S1650000x1, .f32⟩
  | 62 => ⟨S1650000x64, .f32⟩
  | 63 => ⟨S1650000x64, .f32⟩
  | 64 => ⟨S_, .f32⟩
  | 65 => ⟨S50000x64, .f32⟩
  | 66 => ⟨S1650000x1, .i32⟩
  | 67 => ⟨S50000x64, .f32⟩
  | 68 => ⟨S1x64, .f32⟩
  | 69 => ⟨S50000x64, .f32⟩
  | 70 => ⟨S50000x64, .f32⟩
  | 71 => ⟨S_, .f32⟩
  | 72 => ⟨S50000x64, .f32⟩
  | 73 => ⟨S50000x64, .f32⟩
  | 74 => ⟨S50000, .i32⟩
  | 75 => ⟨S1650000, .i32⟩
  | 76 => ⟨S1650000, .i32⟩
  | 77 => ⟨S_, .f32⟩
  | 78 => ⟨S50000, .f32⟩
  | 79 => ⟨S1650000, .f32⟩
  | 80 => ⟨S_, .f32⟩
  | 81 => ⟨S50000, .f32⟩
  | 82 => ⟨S1650000x1, .i32⟩
  | 83 => ⟨S50000, .f32⟩
  | 84 => ⟨S_, .f32⟩
  | 85 => ⟨S50000, .f32⟩
  | 86 => ⟨S50000, .i1⟩
  | 87 => ⟨S50000, .f32⟩
  | 88 => ⟨S_, .f32⟩
  | 89 => ⟨S_, .f32⟩
  | 90 => ⟨S50000, .f32⟩
  | 91 => ⟨S50000, .f32⟩
  | 92 => ⟨S_, .i32⟩
  | 93 => ⟨S1650000, .i32⟩
  | 94 => ⟨S1650000, .i1⟩
  | 95 => ⟨S_, .i32⟩
  | 96 => ⟨S1650000, .i32⟩
  | 97 => ⟨S1650000, .i32⟩
  | 98 => ⟨S1650000, .i32⟩
  | 99 => ⟨S1650000x1, .i32⟩
  | 100 => ⟨S1650000, .f32⟩
  | 101 => ⟨S1650000, .f32⟩
  | 102 => ⟨S_, .i32⟩
  | 103 => ⟨S1650000, .i32⟩
  | 104 => ⟨S1650000, .i1⟩
  | 105 => ⟨S_, .i32⟩
  | 106 => ⟨S1650000, .i32⟩
  | 107 => ⟨S1650000, .i32⟩
  | 108 => ⟨S1650000, .i32⟩
  | 109 => ⟨S1650000x1, .i32⟩
  | 110 => ⟨S1650000, .f32⟩
  | 111 => ⟨S1650000, .f32⟩
  | 112 => ⟨S50000x64, .f32⟩
  | 113 => ⟨S_, .i32⟩
  | 114 => ⟨S1650000, .i32⟩
  | 115 => ⟨S1650000, .i1⟩
  | 116 => ⟨S_, .i32⟩
  | 117 => ⟨S1650000, .i32⟩
  | 118 => ⟨S1650000, .i32⟩
  | 119 => ⟨S1650000, .i32⟩
  | 120 => ⟨S1650000x1, .i32⟩
  | 121 => ⟨S1650000x64, .f32⟩
  | 122 => ⟨S1650000x1, .f32⟩
  | 123 => ⟨S1650000x64, .f32⟩
  | 124 => ⟨S1650000x64, .f32⟩
  | 125 => ⟨S_, .f32⟩
  | 126 => ⟨S50000x64, .f32⟩
  | 127 => ⟨S1650000x1, .i32⟩
  | _ => ⟨S50000x128, .f32⟩

abbrev hbmTy0_1 (i : Nat) : BufTy := match i % 128 with
  | 0 => ⟨S50000x64, .f32⟩
  | 1 => ⟨S1x64, .f32⟩
  | 2 => ⟨S50000x64, .f32⟩
  | 3 => ⟨S50000x64, .f32⟩
  | 4 => ⟨S_, .f32⟩
  | 5 => ⟨S50000x64, .f32⟩
  | 6 => ⟨S50000x64, .f32⟩
  | 7 => ⟨S50000x1, .f32⟩
  | 8 => ⟨S1x1, .f32⟩
  | 9 => ⟨S50000x1, .f32⟩
  | 10 => ⟨S50000x1, .f32⟩
  | 11 => ⟨S50000x1, .f32⟩
  | 12 => ⟨S50000x1, .f32⟩
  | 13 => ⟨S_, .f32⟩
  | 14 => ⟨S50000x1, .f32⟩
  | 15 => ⟨S50000x1, .f32⟩
  | 16 => ⟨S_, .f32⟩
  | 17 => ⟨S50000x1, .f32⟩
  | 18 => ⟨S50000x1, .f32⟩
  | 19 => ⟨S50000, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_4 : Ref sig .tc := ⟨.hbm, 41, rfl⟩
abbrev main_v24 : Ref sig .tc := ⟨.hbm, 42, rfl⟩
abbrev main_v25 : Ref sig .tc := ⟨.hbm, 43, rfl⟩
abbrev main_c_5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_6 : Ref sig .tc := ⟨.hbm, 52, rfl⟩
abbrev main_v33 : Ref sig .tc := ⟨.hbm, 53, rfl⟩
abbrev main_v34 : Ref sig .tc := ⟨.hbm, 54, rfl⟩
abbrev main_c_7 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_8 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call1_cst : Ref sig .tc := ⟨.hbm, 71, rfl⟩
abbrev main_call1_v0 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_9 : Ref sig .tc := ⟨.hbm, 77, rfl⟩
abbrev main_v53 : Ref sig .tc := ⟨.hbm, 78, rfl⟩
abbrev main_v54 : Ref sig .tc := ⟨.hbm, 79, rfl⟩
abbrev main_cst_10 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_11 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_12 : Ref sig .tc := ⟨.hbm, 88, rfl⟩
abbrev main_call2_v0 : Ref sig .tc := ⟨.hbm, 89, rfl⟩
abbrev main_call2_v1 : Ref sig .tc := ⟨.hbm, 90, rfl⟩
abbrev main_v61 : Ref sig .tc := ⟨.hbm, 91, rfl⟩
abbrev main_c_13 : Ref sig .tc := ⟨.hbm, 92, rfl⟩
abbrev main_v62 : Ref sig .tc := ⟨.hbm, 93, rfl⟩
abbrev main_v63 : Ref sig .tc := ⟨.hbm, 94, rfl⟩
abbrev main_c_14 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_c_15 : Ref sig .tc := ⟨.hbm, 102, rfl⟩
abbrev main_v70 : Ref sig .tc := ⟨.hbm, 103, rfl⟩
abbrev main_v71 : Ref sig .tc := ⟨.hbm, 104, rfl⟩
abbrev main_c_16 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_c_17 : Ref sig .tc := ⟨.hbm, 113, rfl⟩
abbrev main_v79 : Ref sig .tc := ⟨.hbm, 114, rfl⟩
abbrev main_v80 : Ref sig .tc := ⟨.hbm, 115, rfl⟩
abbrev main_c_18 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_cst_19 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_call3_cst : Ref sig .tc := ⟨.hbm, 132, rfl⟩
abbrev main_call3_v0 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_cst_20 : Ref sig .tc := ⟨.hbm, 141, rfl⟩
abbrev main_v102 : Ref sig .tc := ⟨.hbm, 142, rfl⟩
abbrev main_v103 : Ref sig .tc := ⟨.hbm, 143, rfl⟩
abbrev main_cst_21 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S50000_S1650000_d0 : Shape.Concatenates [S1600000, S50000] S1650000 0
  bcast_S_S50000 : S_.BroadcastsInDim S50000 (![] : Fin 0 → Fin S50000.rank)
  bcast_S1650000_S1650000x1_0 : S1650000.BroadcastsInDim S1650000x1 (![0] : Fin 1 → Fin S1650000x1.rank)
  bcast_S_S1650000 : S_.BroadcastsInDim S1650000 (![] : Fin 0 → Fin S1650000.rank)
  bcast_S1650000x1_S1650000x64_0_1 : S1650000x1.BroadcastsInDim S1650000x64 (![0, 1] : Fin 2 → Fin S1650000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  bcast_S_S50000x1 : S_.BroadcastsInDim S50000x1 (![] : Fin 0 → Fin S50000x1.rank)
  shapeCasts_S50000x1_S50000 : S50000x1.ShapeCasts S50000
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S50000x128_S128x64_S50000x64_1_0_0_1_n_n_wf : DotDims.WF S50000x128 S128x64 S50000x64 [1] [0] [0] [1] [] []
  gather_S50000x64_S1650000x1_S1650000x64_1_0_n_n_0_1_164_wf : GatherDims.WF S50000x64 S1650000x1 S1650000x64 [1] [0] [] [0] [] 1 ![1, 64]
  scatter_S50000x64_S1650000x1_S1650000x64_1_0_0_1_wf : ScatterDims.WF S50000x64 S1650000x1 S1650000x64 [1] [0] [0] 1
  dot_S50000x64_S64x64_S50000x64_1_0_0_1_n_n_wf : DotDims.WF S50000x64 S64x64 S50000x64 [1] [0] [0] [1] [] []
  dot_S50000x64_S64x1_S50000x1_1_0_0_1_n_n_wf : DotDims.WF S50000x64 S64x1 S50000x1 [1] [0] [0] [1] [] []

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S1650000x1_S1650000x64_1_0_n_n_0_1_164 : GatherDims S50000x64 S1650000x1 S1650000x64 where
  offsetDims := [1]
  collapsedSliceDims := [0]
  operandBatchingDims := []
  startIndicesBatchingDims := []
  startIndexMap := [0]
  indexVectorDim := 1
  sliceSizes := ![1, 64]
  wf := gather_S50000x64_S1650000x1_S1650000x64_1_0_n_n_0_1_164_wf
def scatter_S50000x64_S1650000x1_S1650000x64_1_0_0_1 : ScatterDims S50000x64 S1650000x1 S1650000x64 where
  updateWindowDims := [1]
  insertedWindowDims := [0]
  scatterDimsToOperandDims := [0]
  indexVectorDim := 1
  wf := scatter_S50000x64_S1650000x1_S1650000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S50000x64_S64x1_S50000x1_1_0_0_1_n_n : DotDims S50000x64 S64x1 S50000x1 where
  lhsContracting := [1]
  rhsContracting := [0]
  lhsNonContracting := [0]
  rhsNonContracting := [1]
  lhsBatch := []
  rhsBatch := []
  wf := dot_S50000x64_S64x1_S50000x1_1_0_0_1_n_n_wf

class Facts : Prop extends Facts₀ where

variable [Facts]
-- ==== Proof.KernelRun.lean ====
/-
  The idealized kernel's run with its result named.

  @main is five pipelined regions among stretches of host operations. Every weakly fair execution from a memory with
  zero counters terminates, and in the final state every buffer that no scope owns holds the contents the fold through
  @main assigns it: a stretch of host operations applies each operation's function in turn, and a region leaves its
  output array at what its write-backs make of it and every other buffer as it found it. Read at the buffer @main
  returns this gives the result; read at the nine arguments it gives that they end as launched.
-/
import proofs.«102505_j36593121362326_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the returned buffer ends at the fold's contents
    there, and each argument ends as launched. -/
theorem run : θ_run defs (onTc (τ := τ) (main (F := F))) ⟨m, fun _ => 0, ρ⟩ (fun r => ∀ c : Dev nD,
      r.2.mem ((c.tc : Thread nD τ).loc main_v66) = W12 m ρ c (Proc.devRef .tc main_v66)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v66 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c)⟩)

end Cert.KernelIdeal.RunValue

end
-- ==== Proof.LibBlockReads.lean ====
/-
  Vector operations of a kernel body read at an index, on the extended reals: a matrix product accumulated into
  zeros as the sum over the contracted coordinate (both operand orders), a sum along the first or the last axis
  of a rank-3 block as a sum over that axis's coordinate, and the re-shapings and broadcasts that put a row
  vector or a matrix of per-row scales beside a block. Nothing here mentions a program.
-/
import Idealize.ShloMosaic.PureOps.Ideal.Laws
import Idealize.ShloMosaic.Lib.ValueIdx
import Idealize.ShloMosaic.Lib.Pipeline.Value

open scoped BigOperators

namespace Cert.Lib.BlockReads

open Idealize.ShloMosaic Idealize.ShloMosaic.ValueIdx

/-! ## Matrix products into a zero accumulator -/

section Matmul
variable {m k n : Nat} {φ₁ φ₂ : FTy}

/-- A product of an m×k by a k×n matrix (contracting the left operand's columns with the right operand's rows),
    accumulated into zeros, is at (a, b) the sum over c of A(a, c) · B(c, b). -/
theorem matmul_zero_rows_apply (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A product of an m×k matrix by the TRANSPOSE of an n×k matrix (both operands contracted along their columns),
    accumulated into zeros, is at (a, b) the sum over c of A(a, c) · B(b, c). -/
theorem matmul_zero_cols_apply (d : DotDims ⟨2, ![m, k]⟩ ⟨2, ![n, k]⟩ ⟨2, ![m, n]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (A : FVec Ideal ⟨2, ![m, k]⟩ φ₁) (B : FVec Ideal ⟨2, ![n, k]⟩ φ₂)
    (a : Fin m) (b : Fin n) :
    matmul d prec A B (constant ⟨2, ![m, n]⟩ .f32 0x00000000#32) (ix2 a b) = ∑ c : Fin k, A (ix2 a c) * B (ix2 b c) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Matmul

/-! ## Sums along one axis of a rank-3 block -/

section AxisSums
variable {a b c : Nat} {φ : FTy}

/-- The sum along the FIRST axis of an a×b×c block is at (q, r) the sum over p of the block at (p, q, r). -/
theorem sum_first_axis_apply (src : FVec Ideal ⟨3, ![a, b, c]⟩ φ) (acc : BitVec φ.bits)
    (h : (⟨3, ![a, b, c]⟩ : Shape).Reduces [0] ⟨2, ![b, c]⟩) (hφ : FKind.Formats φ) (hacc : acc = FKind.add.neutral φ hφ)
    (q : Fin b) (r : Fin c) :
    multiReduction .add [0] ⟨2, ![b, c]⟩ src acc h hφ hacc (ix2 q r) = ∑ p : Fin a, src (ix3 p q r) := by
  rw [Ideal.multiReduction_add_single]
  refine Finset.sum_congr rfl fun p _ => congrArg src ?_
  funext ax; apply Fin.ext
  match ax with
  | ⟨0, _⟩ => rfl
  | ⟨1, _⟩ => rfl
  | ⟨2, _⟩ => rfl

/-- The sum along the LAST axis of an a×b×c block is at (p, q) the sum over r of the block at (p, q, r). -/
theorem sum_last_axis_apply (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ src acc h hφ hacc (ix2 p q) = ∑ r : Fin c, src (ix3 p q r) := by
  rw [Ideal.multiReduction_add_single]
  refine Finset.sum_congr rfl fun r _ => congrArg src ?_
  funext ax; apply Fin.ext
  match ax with
  | ⟨0, _⟩ => rfl
  | ⟨1, _⟩ => rfl
  | ⟨2, _⟩ => rfl

end AxisSums

/-! ## Re-shapings and broadcasts of per-row values -/

section Layout
variable {α : Type} {a b c : Nat}

/-- A 1×b row broadcast down a rows reads its entry b. -/
theorem broadcast_row_apply (x : (⟨2, ![1, b]⟩ : Shape).Idx → α) (h : (⟨2, ![1, b]⟩ : Shape).Broadcasts ⟨2, ![a, b]⟩)
    (p : Fin a) (q : Fin b) : broadcastTo ⟨2, ![a, b]⟩ x h (ix2 p q) = x (ix2 0 q) :=
  broadcastTo_apply x h _ _ fun ax => by
    match ax with
    | ⟨0, _⟩ => rfl
    | ⟨1, _⟩ =>
      show q.val = if b = 1 then 0 else q.val
      split_ifs with hb
      · have := q.isLt; omega
      · rfl

/-- A b×c matrix viewed as one 1×b×c slab and broadcast along a new leading axis of extent a reads the matrix. -/
theorem broadcast_slab_apply (x : (⟨2, ![b, c]⟩ : Shape).Idx → α)
    (h₁ : (⟨2, ![b, c]⟩ : Shape).ShapeCasts ⟨3, ![1, b, c]⟩)
    (h₂ : (⟨3, ![1, b, c]⟩ : Shape).Broadcasts ⟨3, ![a, b, c]⟩) (p : Fin a) (q : Fin b) (r : Fin c) :
    broadcastTo ⟨3, ![a, b, c]⟩ (shapeCast ⟨3, ![1, b, c]⟩ x h₁) h₂ (ix3 p q r) = x (ix2 q r) := by
  refine (broadcastTo_apply _ h₂ _ (ix3 0 q r) fun ax => ?_).trans ?_
  · match ax with
    | ⟨0, _⟩ => rfl
    | ⟨1, _⟩ =>
      show q.val = if b = 1 then 0 else q.val
      split_ifs with hb
      · have := q.isLt; omega
      · rfl
    | ⟨2, _⟩ =>
      show r.val = if c = 1 then 0 else r.val
      split_ifs with hc
      · have := r.isLt; omega
      · rfl
  · refine shapeCast_apply x h₁ _ _ ?_
    rw [Shape.rowMajor_val_two, Shape.rowMajor_val_three]
    show q.val * c + r.val = ((0 : Nat) * b + q.val) * c + r.val
    rw [Nat.zero_mul, Nat.zero_add]

/-- An a×b matrix viewed as a×b×1 columns and broadcast along a new trailing axis of extent c reads the matrix. -/
theorem broadcast_cols_apply (x : (⟨2, ![a, b]⟩ : Shape).Idx → α)
    (h₁ : (⟨2, ![a, b]⟩ : Shape).ShapeCasts ⟨3, ![a, b, 1]⟩)
    (h₂ : (⟨3, ![a, b, 1]⟩ : Shape).Broadcasts ⟨3, ![a, b, c]⟩) (p : Fin a) (q : Fin b) (r : Fin c) :
    broadcastTo ⟨3, ![a, b, c]⟩ (shapeCast ⟨3, ![a, b, 1]⟩ x h₁) h₂ (ix3 p q r) = x (ix2 p q) := by
  refine (broadcastTo_apply _ h₂ _ (ix3 p q 0) fun ax => ?_).trans ?_
  · match ax with
    | ⟨0, _⟩ =>
      show p.val = if a = 1 then 0 else p.val
      split_ifs with ha
      · have := p.isLt; omega
      · rfl
    | ⟨1, _⟩ =>
      show q.val = if b = 1 then 0 else q.val
      split_ifs with hb
      · have := q.isLt; omega
      · rfl
    | ⟨2, _⟩ => rfl
  · refine shapeCast_apply x h₁ _ _ ?_
    rw [Shape.rowMajor_val_two, Shape.rowMajor_val_three]
    show p.val * b + q.val = (p.val * b + q.val) * 1 + 0
    omega

end Layout

end Cert.Lib.BlockReads
-- ==== Proof.LibMatProd.lean ====
/-
  Dense matrix products on the extended reals, as functions of whole arrays.

  `matProd A B` is the product of an m×k by a k×n array: entry (a, b) is the sum over c of A(a, c) · B(c, b). A plain
  product accumulated into zeros (the left operand's columns contracted with the right operand's rows, no batch axes)
  is this function; the host's dot_general with the same dimension numbers is the same sum with no accumulator, so it
  is this function too; and an entry of a product depends on one row of the left operand and one column of the right,
  so the product of a block of rows of A with B is those rows of `matProd A B`. Sums on the extended reals are taken
  in any order, so no finiteness is asked. Nothing here mentions a program.
-/
import Idealize.ShloMosaic.PureOps.Ideal.Laws
import Idealize.ShloMosaic.Lib.ValueIdx
import proofs.«102505_j36593121362326_1_alg».proof.Proof.LibBlockReads

open scoped BigOperators

noncomputable section

namespace Cert.Lib.MatProd

open Idealize.ShloMosaic Idealize.ShloMosaic.ValueIdx

variable {m k n : Nat}

/-- The product of an m×k by a k×n array of extended reals. -/
def matProd (A : (⟨2, ![m, k]⟩ : Shape).Idx → EReal) (B : (⟨2, ![k, n]⟩ : Shape).Idx → EReal) :
    (⟨2, ![m, n]⟩ : Shape).Idx → EReal :=
  fun i => ∑ c : Fin k, A (ix2 (i 0) c) * B (ix2 c (i 1))

theorem matProd_apply (A : (⟨2, ![m, k]⟩ : Shape).Idx → EReal) (B : (⟨2, ![k, n]⟩ : Shape).Idx → EReal)
    (a : Fin m) (b : Fin n) : matProd A B (ix2 a b) = ∑ c : Fin k, A (ix2 a c) * B (ix2 c b) := rfl

/-- A plain product into a zero accumulator is `matProd`: entry by entry it is the sum over the contracted
    coordinate. -/
theorem matmul_zero_eq_matProd {φ₁ φ₂ : FTy} (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (A : FVec Ideal ⟨2, ![m, k]⟩ φ₁) (B : FVec Ideal ⟨2, ![k, n]⟩ φ₂) :
    matmul d prec A B (constant ⟨2, ![m, n]⟩ .f32 0x00000000#32) = matProd A B := by
  funext i
  obtain ⟨a, b, rfl⟩ : ∃ (a : Fin m) (b : Fin n), i = ix2 a b := ⟨i 0, i 1, eq_ix2 i⟩
  exact Cert.Lib.BlockReads.matmul_zero_rows_apply d hlc hrc hln hrn hlb hrb prec A B a b

/-- The host's dot_general is, on the extended reals, the product into a zero accumulator with the same dimension
    numbers: both are the sum over the contracted index of the products of the operands' entries. -/
theorem dotGeneral_eq_matmul_zero {sl sr so : Shape} {φ₁ φ₂ : FTy} (d : DotDims sl sr so)
    (prec prec' : Option ContractPrecision) (sched : HostSchedule) (A : FVec Ideal sl φ₁) (B : FVec Ideal sr φ₂) :
    FloatOps.dotGeneral d prec sched A B = matmul d prec' A B (constant so .f32 0x00000000#32) := by
  funext j
  show _ = FloatOps.matmul d prec' A B _ j
  rw [Ideal.dotGeneral_apply, Ideal.matmul_constant_zero_apply]

/-- So the host's plain dot_general is `matProd`, whatever the precision and the schedule. -/
theorem dotGeneral_eq_matProd {φ₁ φ₂ : FTy} (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (A : FVec Ideal ⟨2, ![m, k]⟩ φ₁) (B : FVec Ideal ⟨2, ![k, n]⟩ φ₂) :
    FloatOps.dotGeneral d prec sched A B = matProd A B :=
  (dotGeneral_eq_matmul_zero d prec none sched A B).trans (matmul_zero_eq_matProd d hlc hrc hln hrn hlb hrb none A B)

/-- An entry of a product depends on one row of the left operand and one column of the right: if row y of A' is row r
    of A and column b of B' is column b' of B, then `matProd A' B'` at (y, b) is `matProd A B` at (r, b'). So the
    product of a block of rows of A with B is the same rows of `matProd A B`. -/
theorem matProd_block {m' n' : Nat} (A : (⟨2, ![m, k]⟩ : Shape).Idx → EReal) (A' : (⟨2, ![m', k]⟩ : Shape).Idx → EReal)
    (B : (⟨2, ![k, n]⟩ : Shape).Idx → EReal) (B' : (⟨2, ![k, n']⟩ : Shape).Idx → EReal)
    (y : Fin m') (b : Fin n') (r : Fin m) (b' : Fin n)
    (hA : ∀ c : Fin k, A' (ix2 y c) = A (ix2 r c)) (hB : ∀ c : Fin k, B' (ix2 c b) = B (ix2 c b')) :
    matProd A' B' (ix2 y b) = matProd A B (ix2 r b') := by
  rw [matProd_apply, matProd_apply]
  exact Finset.sum_congr rfl fun c _ => by rw [hA c, hB c]

end Cert.Lib.MatProd

end
-- ==== Proof.LibRowReductions.lean ====
/-
  A row-wise reduction of an a×b block read at an index, on the extended reals: the maximum along each row as the
  fold of max over the row's entries (a vector reduction and the reference's one-operand reduce alike), the sum along
  each row as the sum over the row's entries, and the re-shapings and broadcasts that put a column of per-row values
  or a row of per-column values beside the block. Nothing here mentions a program.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value
import Idealize.ShloMosaic.Lib.ValueLayout

open scoped BigOperators

namespace Cert.Lib.RowReductions

open Idealize.ShloMosaic Idealize.ShloMosaic.ValueIdx

/-! ## Reductions along each row -/

section Rows
variable {a b : Nat} {φ : FTy}

/-- The row index p with column k put back is (p, k). -/
theorem lift_row (h : (⟨2, ![a, b]⟩ : Shape).Reduces [1] ⟨1, ![a]⟩) (p : Fin a)
    (k : Fin ((⟨2, ![a, b]⟩ : Shape).size 1)) : h.lift (ix1 p) k = ix2 p (⟨k.val, k.isLt⟩ : Fin b) := by
  funext ax; apply Fin.ext
  match ax with
  | ⟨0, _⟩ => rfl
  | ⟨1, _⟩ => rfl

/-- The maximum along each row of an a×b block is at p the fold of max, from the accumulator's value, over the
    entries (p, k) of row p. -/
theorem rowmax_apply (src : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (p : Fin a) :
    multiReduction .maximumf [1] ⟨1, ![a]⟩ src acc h hφ hacc (ix1 p)
      = (Finset.univ : Finset (Fin b)).fold max (FloatOps.ofBits (F := Ideal) φ acc) (fun k => src (ix2 p k)) := by
  rw [Ideal.multiReduction_maximumf_single]
  have hf : (src ∘ h.lift (ix1 p)) = fun k : Fin b => src (ix2 p k) :=
    funext fun k => congrArg src (lift_row h p k)
  exact congrArg (fun f => Finset.fold max (FloatOps.ofBits (F := Ideal) φ acc) f (Finset.univ : Finset (Fin b))) hf

/-- The sum along each row of an a×b block is at p the sum over k of the block at (p, k). -/
theorem rowsum_apply (src : FVec Ideal ⟨2, ![a, b]⟩ φ) (acc : BitVec φ.bits)
    (h : (⟨2, ![a, b]⟩ : Shape).Reduces [1] ⟨1, ![a]⟩) (hφ : FKind.Formats φ)
    (hacc : acc = FKind.add.neutral φ hφ) (p : Fin a) :
    multiReduction .add [1] ⟨1, ![a]⟩ src acc h hφ hacc (ix1 p) = ∑ k : Fin b, src (ix2 p k) := by
  rw [Ideal.multiReduction_add_single]
  exact Finset.sum_congr rfl fun k _ => congrArg src (lift_row h p k)

/-- The reference's one-operand reduce with a maximum body along each row of an a×b block is at p the fold of max,
    from the initial value's element, over the entries (p, k) of row p. -/
theorem host_rowmax_apply {u : Shape} (x : (⟨2, ![a, b]⟩ : Shape).Idx → Ideal .f32) (init : u.Idx → Ideal .f32)
    (h' : (⟨2, ![a, b]⟩ : Shape).ReducesTo [1] ⟨1, ![a]⟩) (hu : 0 < u.numel) (p : Fin a) :
    Host.reduce (FloatOps.maximumf (F := Ideal) (φ := .f32)) x init h' hu (ix1 p)
      = (Finset.univ : Finset (Fin b)).fold max (init (Shape.Idx.first hu)) (fun k => x (ix2 p k)) := by
  have h : (⟨2, ![a, b]⟩ : Shape).Reduces [1] ⟨1, ![a]⟩ := ⟨h'.1, Nat.one_pos, h'.2⟩
  rw [Host.reduce_eq_fold_single FloatOps.maximumf x init h' h hu]
  have hf : (x ∘ h.lift (ix1 p)) = fun k : Fin b => x (ix2 p k) :=
    funext fun k => congrArg x (lift_row h p k)
  exact congrArg (fun f => Finset.fold max (init (Shape.Idx.first hu)) f (Finset.univ : Finset (Fin b))) hf

end Rows

/-! ## Re-shapings and broadcasts of per-row and per-column values -/

section Layout
variable {α : Type} {a b : Nat}

/-- A vector of a entries viewed as an a×1 column reads its entry p at (p, 0). -/
theorem shapeCast_col_apply (x : (⟨1, ![a]⟩ : Shape).Idx → α) (h : (⟨1, ![a]⟩ : Shape).ShapeCasts ⟨2, ![a, 1]⟩)
    (p : Fin a) : shapeCast ⟨2, ![a, 1]⟩ x h (ix2 p 0) = x (ix1 p) := by
  refine shapeCast_apply x h _ _ ?_
  rw [Shape.rowMajor_val_one, Shape.rowMajor_val_two]
  show p.val = p.val * 1 + 0
  omega

/-- An a×1 column broadcast across b columns reads its entry p at every (p, q). -/
theorem broadcast_col_apply (x : (⟨2, ![a, 1]⟩ : Shape).Idx → α) (h : (⟨2, ![a, 1]⟩ : Shape).Broadcasts ⟨2, ![a, b]⟩)
    (p : Fin a) (q : Fin b) : broadcastTo ⟨2, ![a, b]⟩ x h (ix2 p q) = x (ix2 p 0) :=
  broadcastTo_apply x h _ _ fun ax => by
    match ax with
    | ⟨0, _⟩ =>
      show p.val = if a = 1 then 0 else p.val
      split_ifs with ha
      · have := p.isLt; omega
      · rfl
    | ⟨1, _⟩ => rfl

/-- A vector of b entries viewed as a 1×b row reads its entry q at (0, q). -/
theorem shapeCast_rowvec_apply (x : (⟨1, ![b]⟩ : Shape).Idx → α) (h : (⟨1, ![b]⟩ : Shape).ShapeCasts ⟨2, ![1, b]⟩)
    (q : Fin b) : shapeCast ⟨2, ![1, b]⟩ x h (ix2 0 q) = x (ix1 q) := by
  refine shapeCast_apply x h _ _ ?_
  rw [Shape.rowMajor_val_one, Shape.rowMajor_val_two]
  show q.val = (0 : Nat) * b + q.val
  omega

end Layout

/-! ## The accumulator of a maximum -/

/-- The maximum of −∞ and x is x. -/
theorem fold_max_bot (x : EReal) : max (⊥ : EReal) x = x := max_eq_right bot_le

/-- The single-precision bit pattern FF800000 is −∞. -/
theorem ofBits_neg_inf_f32 : Ideal.ofBits .f32 0xFF800000#32 = (⊥ : EReal) := by
  simp [Ideal.ofBits, Ideal.ieee]

/-! ## The reference's broadcasts of per-row values and of a scalar -/

section HostBroadcasts
variable {α : Type} {n c : Nat}

/-- A vector of n entries broadcast into an n×1 column along the rows reads its entry p at (p, 0). -/
theorem bcastInDim_col_apply (x : (⟨1, ![n]⟩ : Shape).Idx → α)
    (h : (⟨1, ![n]⟩ : Shape).BroadcastsInDim ⟨2, ![n, 1]⟩ ![0]) (p : Fin n) :
    broadcastInDim ⟨2, ![n, 1]⟩ ![0] h x (ix2 p 0) = x (ix1 p) :=
  broadcastInDim_apply _ h x _ _ fun ax => by
    match ax with
    | ⟨0, _⟩ =>
      show p.val = if n = 1 then 0 else p.val
      split_ifs with hn
      · have := p.isLt; omega
      · rfl

/-- An n×1 column broadcast into an n×c block, axis for axis, reads its entry p at every (p, q). -/
theorem bcastInDim_cols_apply (x : (⟨2, ![n, 1]⟩ : Shape).Idx → α)
    (h : (⟨2, ![n, 1]⟩ : Shape).BroadcastsInDim ⟨2, ![n, c]⟩ ![0, 1]) (p : Fin n) (q : Fin c) :
    broadcastInDim ⟨2, ![n, c]⟩ ![0, 1] h x (ix2 p q) = x (ix2 p 0) :=
  broadcastInDim_apply _ h x _ _ fun ax => by
    match ax with
    | ⟨0, _⟩ =>
      show p.val = if n = 1 then 0 else p.val
      split_ifs with hn
      · have := p.isLt; omega
      · rfl
    | ⟨1, _⟩ => rfl

/-- A scalar broadcast into an n×c block reads the scalar at every index. -/
theorem bcastInDim_scalar_apply (x : (⟨0, ![]⟩ : Shape).Idx → α)
    (h : (⟨0, ![]⟩ : Shape).BroadcastsInDim ⟨2, ![n, c]⟩ ![]) (i : (⟨2, ![n, c]⟩ : Shape).Idx) :
    broadcastInDim ⟨2, ![n, c]⟩ ![] h x i = x ix0 :=
  broadcastInDim_apply _ h x _ _ fun ax => ax.elim0

end HostBroadcasts

end Cert.Lib.RowReductions
-- ==== Proof.LibRowVector.lean ====
/-
  A vector of n entries as the single row of a 1×n array, and that row repeated down the r rows of an r×n array, read
  at an index: the re-shaping [n]→[1,n], the reference's broadcast of a vector along the columns of a 1×n array, its
  broadcast of a 1×n row into an r×n array, and its broadcast of a scalar into an array of any shape. Nothing here
  mentions a program.
-/
import Idealize.ShloMosaic.Lib.ValueIdx
import Idealize.ShloMosaic.Lib.Pipeline.Value
import Idealize.ShloMosaic.Lib.ValueLayout
import proofs.«102505_j36593121362326_1_alg».proof.Proof.LibRowReductions

namespace Cert.Lib.RowVector

open Idealize.ShloMosaic Idealize.ShloMosaic.ValueIdx

variable {α : Type} {r n : Nat}

/-- A vector of n entries as the single row of a 1×n array: entry (0, q) is entry q. -/
def asRow (x : (⟨1, ![n]⟩ : Shape).Idx → α) : (⟨2, ![1, n]⟩ : Shape).Idx → α := fun i => x (ix1 (i 1))

theorem asRow_apply (x : (⟨1, ![n]⟩ : Shape).Idx → α) (q : Fin n) : asRow x (ix2 0 q) = x (ix1 q) := rfl

/-- Every index of a 1×n array is in row 0. -/
theorem idx_row (i : (⟨2, ![1, n]⟩ : Shape).Idx) : i = ix2 0 (i 1) := by
  funext d
  match d with
  | ⟨0, _⟩ =>
    have h : (i 0).val < 1 := (i 0).isLt
    exact Fin.ext (by show (i 0).val = 0; omega)
  | ⟨1, _⟩ => rfl

/-- The re-shaping [n]→[1,n] is `asRow`. -/
theorem shapeCast_eq_asRow (x : (⟨1, ![n]⟩ : Shape).Idx → α) (h : (⟨1, ![n]⟩ : Shape).ShapeCasts ⟨2, ![1, n]⟩) :
    shapeCast ⟨2, ![1, n]⟩ x h = asRow x := by
  funext i
  rw [idx_row i]
  exact Cert.Lib.RowReductions.shapeCast_rowvec_apply x h (i 1)

/-- The reference's broadcast of a vector along the columns of a 1×n array is `asRow`. -/
theorem bcastInDim_eq_asRow (x : (⟨1, ![n]⟩ : Shape).Idx → α)
    (h : (⟨1, ![n]⟩ : Shape).BroadcastsInDim ⟨2, ![1, n]⟩ ![1]) :
    broadcastInDim ⟨2, ![1, n]⟩ ![1] h x = asRow x := by
  funext i
  rw [idx_row i]
  refine broadcastInDim_apply _ h x _ _ fun ax => ?_
  match ax with
  | ⟨0, _⟩ =>
    show (i 1).val = if n = 1 then 0 else (i 1).val
    have h1 : (i 1).val < n := (i 1).isLt
    split_ifs with hn
    · omega
    · rfl

/-- A 1×n row broadcast into an r×n array, axis for axis, reads its entry q at every (p, q). -/
theorem bcastInDim_rows_apply (x : (⟨2, ![1, n]⟩ : Shape).Idx → α)
    (h : (⟨2, ![1, n]⟩ : Shape).BroadcastsInDim ⟨2, ![r, n]⟩ ![0, 1]) (p : Fin r) (q : Fin n) :
    broadcastInDim ⟨2, ![r, n]⟩ ![0, 1] h x (ix2 p q) = x (ix2 0 q) :=
  broadcastInDim_apply _ h x _ _ fun ax => by
    match ax with
    | ⟨0, _⟩ =>
      show (0 : Nat) = if (1 : Nat) = 1 then 0 else p.val
      rw [if_pos rfl]
    | ⟨1, _⟩ =>
      show q.val = if n = 1 then 0 else q.val
      split_ifs with hn
      · have := q.isLt; omega
      · rfl

/-- A scalar broadcast into an array of any shape reads the scalar at every index. -/
theorem bcastInDim_scalar_apply {s : Shape} (x : (⟨0, ![]⟩ : Shape).Idx → α)
    (h : (⟨0, ![]⟩ : Shape).BroadcastsInDim s ![]) (i : s.Idx) : broadcastInDim s ![] h x i = x ix0 :=
  broadcastInDim_apply _ h x _ _ fun ax => ax.elim0

end Cert.Lib.RowVector
-- ==== Proof.LibBiasRelu.lean ====
/-
  A bias row added to every row of a matrix and the result clamped below at zero, on the extended reals: the
  function itself, the kernel body's spelling of it (the row re-shaped in place, broadcast down the rows, added, and
  the maximum taken with a splat of the zero word), the reference's spelling (the bias vector broadcast into a 1×k row
  and then into the n×k array, added, and the maximum taken with a broadcast zero), and the fact that an entry depends
  on one entry of the matrix. The zero is kept as the value of the zero word, the same on both sides.
  Nothing here mentions a program.
-/
import Idealize.ShloMosaic.PureOps.Ideal.Laws
import Idealize.ShloMosaic.Lib.ValueIdx
import Idealize.ShloMosaic.Lib.Pipeline.Value
import proofs.«102505_j36593121362326_1_alg».proof.Proof.LibBlockReads
import proofs.«102505_j36593121362326_1_alg».proof.Proof.LibRowVector

noncomputable section

namespace Cert.Lib.BiasRelu

open Idealize.ShloMosaic Idealize.ShloMosaic.ValueIdx Cert.Lib.RowVector

variable {n n' k : Nat}

/-- Entry (p, q) is the maximum of X(p, q) + b(0, q) and zero. -/
def biasRelu (X : (⟨2, ![n, k]⟩ : Shape).Idx → EReal) (b : (⟨2, ![1, k]⟩ : Shape).Idx → EReal) :
    (⟨2, ![n, k]⟩ : Shape).Idx → EReal :=
  fun i => max (X i + b (ix2 (0 : Fin 1) (⟨(i 1).val, idx2_lt1 i⟩ : Fin k))) (Ideal.ofBits .f32 0x00000000#32)

theorem biasRelu_apply (X : (⟨2, ![n, k]⟩ : Shape).Idx → EReal) (b : (⟨2, ![1, k]⟩ : Shape).Idx → EReal)
    (p : Fin n) (q : Fin k) :
    biasRelu X b (ix2 p q) = max (X (ix2 p q) + b (ix2 0 q)) (Ideal.ofBits .f32 0x00000000#32) := rfl

/-- An entry depends on one entry of the matrix: equal entries give equal results. -/
theorem biasRelu_rows (X : (⟨2, ![n, k]⟩ : Shape).Idx → EReal) (X' : (⟨2, ![n', k]⟩ : Shape).Idx → EReal)
    (b : (⟨2, ![1, k]⟩ : Shape).Idx → EReal) (p' : Fin n') (p : Fin n) (q : Fin k)
    (h : X' (ix2 p' q) = X (ix2 p q)) : biasRelu X' b (ix2 p' q) = biasRelu X b (ix2 p q) := by
  rw [biasRelu_apply, biasRelu_apply, h]

/-- The kernel body's spelling. -/
theorem body_eq (x0 : FVec Ideal ⟨2, ![n, k]⟩ .f32) (x2 : FVec Ideal ⟨2, ![1, k]⟩ .f32)
    (h0 : (⟨2, ![n, k]⟩ : Shape).ShapeCasts ⟨2, ![n, k]⟩) (h2 : (⟨2, ![1, k]⟩ : Shape).ShapeCasts ⟨2, ![1, k]⟩)
    (hb : (⟨2, ![1, k]⟩ : Shape).Broadcasts ⟨2, ![n, k]⟩) :
    maximumf (addf (shapeCast ⟨2, ![n, k]⟩ x0 h0) (broadcastTo ⟨2, ![n, k]⟩ (shapeCast ⟨2, ![1, k]⟩ x2 h2) hb))
      (broadcast ⟨2, ![n, k]⟩ (Scalar.ofBits (F := Ideal) .f32 0x00000000#32)) = biasRelu x0 x2 := by
  funext i
  obtain ⟨p, q, rfl⟩ : ∃ (p : Fin n) (q : Fin k), i = ix2 p q := ⟨i 0, i 1, eq_ix2 i⟩
  rw [maximumf_apply, addf_apply, shapeCast_self, shapeCast_self, Cert.Lib.BlockReads.broadcast_row_apply]
  rfl

/-- The reference's spelling: the bias vector as a 1×k row. -/
theorem host_eq (X : FVec Ideal ⟨2, ![n, k]⟩ .f32) (b : FVec Ideal ⟨1, ![k]⟩ .f32)
    (h1 : (⟨1, ![k]⟩ : Shape).BroadcastsInDim ⟨2, ![1, k]⟩ ![1])
    (h2 : (⟨2, ![1, k]⟩ : Shape).BroadcastsInDim ⟨2, ![n, k]⟩ ![0, 1])
    (h3 : (⟨0, ![]⟩ : Shape).BroadcastsInDim ⟨2, ![n, k]⟩ ![]) :
    maximumf (addf X (broadcastInDim ⟨2, ![n, k]⟩ ![0, 1] h2 (broadcastInDim ⟨2, ![1, k]⟩ ![1] h1 b)))
      (broadcastInDim ⟨2, ![n, k]⟩ ![] h3 (constant (F := Ideal) ⟨0, ![]⟩ .f32 0x00000000#32)) = biasRelu X (asRow b) := by
  funext i
  obtain ⟨p, q, rfl⟩ : ∃ (p : Fin n) (q : Fin k), i = ix2 p q := ⟨i 0, i 1, eq_ix2 i⟩
  rw [maximumf_apply, addf_apply, bcastInDim_rows_apply, bcastInDim_eq_asRow, bcastInDim_scalar_apply]
  rfl

end Cert.Lib.BiasRelu

end
-- ==== Proof.LibSplitLayers.lean ====
/-
  Layers of a perceptron over the extended reals whose first matrix product is taken band by band.

  A layer is a product with a matrix, a bias row added to every row, and the maximum with zero. When the input is
  several arrays laid side by side and the matrix is cut into the matching bands of rows, the one product is the sum
  of the bands' products: a sum over the joined column index splits into the sums over each band's columns, and that
  uses only that addition of extended reals is associative and commutative. A band of a single column is the
  product of a column with a row. Every entry of a layer depends on one row of its inputs, so a block of rows of the
  result is the layer of that block of rows.
-/
import Idealize.ShloMosaic.PureOps.Ideal.Laws
import Idealize.ShloMosaic.Lib.ValueIdx
import Idealize.ShloMosaic.Lib.Pipeline.Value
import proofs.«102505_j36593121362326_1_alg».proof.Proof.LibBlockReads
import proofs.«102505_j36593121362326_1_alg».proof.Proof.LibMatProd
import proofs.«102505_j36593121362326_1_alg».proof.Proof.LibRowVector
import proofs.«102505_j36593121362326_1_alg».proof.Proof.LibBiasRelu

open scoped BigOperators

noncomputable section

namespace Cert.Lib.SplitLayers

open Idealize.ShloMosaic Idealize.ShloMosaic.ValueIdx Cert.Lib.MatProd Cert.Lib.BiasRelu Cert.Lib.RowVector

variable {r r' k k₁ k₂ k₃ n : Nat}

/-! ## One layer -/

/-- Entry (p, q) is max (∑ c, X(p, c) · W(c, q) + b(0, q)) 0. -/
def layer (X : (⟨2, ![r, k]⟩ : Shape).Idx → EReal) (W : (⟨2, ![k, n]⟩ : Shape).Idx → EReal)
    (b : (⟨2, ![1, n]⟩ : Shape).Idx → EReal) : (⟨2, ![r, n]⟩ : Shape).Idx → EReal :=
  biasRelu (matProd X W) b

/-- Row p' of the layer of X' is row p of the layer of X when row p' of X' is row p of X. -/
theorem layer_rows (X : (⟨2, ![r, k]⟩ : Shape).Idx → EReal) (X' : (⟨2, ![r', k]⟩ : Shape).Idx → EReal)
    (W : (⟨2, ![k, n]⟩ : Shape).Idx → EReal) (b : (⟨2, ![1, n]⟩ : Shape).Idx → EReal)
    (p' : Fin r') (p : Fin r) (q : Fin n) (h : ∀ c : Fin k, X' (ix2 p' c) = X (ix2 p c)) :
    layer X' W b (ix2 p' q) = layer X W b (ix2 p q) :=
  biasRelu_rows _ _ b p' p q (matProd_block X X' W W p' q p q h fun _ => rfl)

/-- The same for a layer without the maximum read through a final function applied entry by entry. -/
theorem matProd_rows (X : (⟨2, ![r, k]⟩ : Shape).Idx → EReal) (X' : (⟨2, ![r', k]⟩ : Shape).Idx → EReal)
    (W : (⟨2, ![k, n]⟩ : Shape).Idx → EReal) (p' : Fin r') (p : Fin r) (q : Fin n)
    (h : ∀ c : Fin k, X' (ix2 p' c) = X (ix2 p c)) : matProd X' W (ix2 p' q) = matProd X W (ix2 p q) :=
  matProd_block X X' W W p' q p q h fun _ => rfl

/-- A bias row broadcast down the rows and added, then the maximum with a splat of the zero word. -/
theorem relu_bias_eq (M : FVec Ideal ⟨2, ![r, n]⟩ .f32) (b : FVec Ideal ⟨2, ![1, n]⟩ .f32)
    (hb : (⟨2, ![1, n]⟩ : Shape).Broadcasts ⟨2, ![r, n]⟩) :
    maximumf (addf M (broadcastTo ⟨2, ![r, n]⟩ b hb))
      (broadcast ⟨2, ![r, n]⟩ (Scalar.ofBits (F := Ideal) .f32 0x00000000#32)) = biasRelu M b := by
  funext i
  obtain ⟨p, q, rfl⟩ : ∃ (p : Fin r) (q : Fin n), i = ix2 p q := ⟨i 0, i 1, eq_ix2 i⟩
  rw [maximumf_apply, addf_apply, Cert.Lib.BlockReads.broadcast_row_apply]
  rfl

/-- The reference's spelling of a layer: the host's product, the bias vector broadcast into a row and down the
    rows, the maximum with a broadcast zero. -/
theorem host_layer (d : DotDims ⟨2, ![r, k]⟩ ⟨2, ![k, n]⟩ ⟨2, ![r, n]⟩)
    (hlc : d.lhsContracting = [1]) (hrc : d.rhsContracting = [0]) (hln : d.lhsNonContracting = [0])
    (hrn : d.rhsNonContracting = [1]) (hlb : d.lhsBatch = []) (hrb : d.rhsBatch = [])
    (X : FVec Ideal ⟨2, ![r, k]⟩ .f32) (W : FVec Ideal ⟨2, ![k, n]⟩ .f32) (bv : FVec Ideal ⟨1, ![n]⟩ .f32)
    (h1 : (⟨1, ![n]⟩ : Shape).BroadcastsInDim ⟨2, ![1, n]⟩ ![1])
    (h2 : (⟨2, ![1, n]⟩ : Shape).BroadcastsInDim ⟨2, ![r, n]⟩ ![0, 1])
    (h3 : (⟨0, ![]⟩ : Shape).BroadcastsInDim ⟨2, ![r, n]⟩ ![]) :
    maximumf (addf (Host.dotGeneral d none X W)
        (broadcastInDim ⟨2, ![r, n]⟩ ![0, 1] h2 (broadcastInDim ⟨2, ![1, n]⟩ ![1] h1 bv)))
      (broadcastInDim ⟨2, ![r, n]⟩ ![] h3 (constant (F := Ideal) ⟨0, ![]⟩ .f32 0x00000000#32))
    = layer X W (asRow bv) := by
  rw [Cert.Lib.BiasRelu.host_eq]
  unfold layer
  congr 1
  exact dotGeneral_eq_matProd d hlc hrc hln hrn hlb hrb none _ X W

/-! ## A column times a row -/

/-- A column broadcast along the rows times a row broadcast down the rows is the product of the r×1 by the 1×n
    array: the sum over the one contracted index. -/
theorem outer_eq (E : FVec Ideal ⟨2, ![r, 1]⟩ .f32) (w : FVec Ideal ⟨2, ![1, n]⟩ .f32)
    (he : (⟨2, ![r, 1]⟩ : Shape).Broadcasts ⟨2, ![r, n]⟩) (hw : (⟨2, ![1, n]⟩ : Shape).Broadcasts ⟨2, ![r, n]⟩) :
    mulf (broadcastTo ⟨2, ![r, n]⟩ E he) (broadcastTo ⟨2, ![r, n]⟩ w hw) = matProd E w := by
  funext i
  obtain ⟨p, q, rfl⟩ : ∃ (p : Fin r) (q : Fin n), i = ix2 p q := ⟨i 0, i 1, eq_ix2 i⟩
  rw [mulf_apply, Cert.Lib.BlockReads.broadcast_row_apply, matProd_apply, Fin.sum_univ_one]
  congr 1
  refine broadcastTo_apply E he (ix2 p q) (ix2 p 0) fun a => ?_
  match a with
  | ⟨0, _⟩ =>
    show p.val = if r = 1 then 0 else p.val
    split_ifs with hr
    · have := p.isLt; omega
    · rfl
  | ⟨1, _⟩ => rfl

/-! ## Two and three bands -/

/-- Entry (p, q) is max ((∑ U(p,c)·Wu(c,q) + ∑ V(p,c)·Wv(c,q)) + b(0,q)) 0. -/
def layer2 (U : (⟨2, ![r, k₁]⟩ : Shape).Idx → EReal) (V : (⟨2, ![r, k₂]⟩ : Shape).Idx → EReal)
    (Wu : (⟨2, ![k₁, n]⟩ : Shape).Idx → EReal) (Wv : (⟨2, ![k₂, n]⟩ : Shape).Idx → EReal)
    (b : (⟨2, ![1, n]⟩ : Shape).Idx → EReal) : (⟨2, ![r, n]⟩ : Shape).Idx → EReal :=
  biasRelu (fun i => matProd U Wu i + matProd V Wv i) b

/-- Entry (p, q) is max (((∑ U(p,c)·Wu(c,q) + ∑ V(p,c)·Wv(c,q)) + ∑ E(p,c)·We(c,q)) + b(0,q)) 0. -/
def layer3 (U : (⟨2, ![r, k₁]⟩ : Shape).Idx → EReal) (V : (⟨2, ![r, k₂]⟩ : Shape).Idx → EReal)
    (E : (⟨2, ![r, k₃]⟩ : Shape).Idx → EReal)
    (Wu : (⟨2, ![k₁, n]⟩ : Shape).Idx → EReal) (Wv : (⟨2, ![k₂, n]⟩ : Shape).Idx → EReal)
    (We : (⟨2, ![k₃, n]⟩ : Shape).Idx → EReal)
    (b : (⟨2, ![1, n]⟩ : Shape).Idx → EReal) : (⟨2, ![r, n]⟩ : Shape).Idx → EReal :=
  biasRelu (fun i => matProd U Wu i + matProd V Wv i + matProd E We i) b

theorem layer2_rows (U : (⟨2, ![r, k₁]⟩ : Shape).Idx → EReal) (U' : (⟨2, ![r', k₁]⟩ : Shape).Idx → EReal)
    (V : (⟨2, ![r, k₂]⟩ : Shape).Idx → EReal) (V' : (⟨2, ![r', k₂]⟩ : Shape).Idx → EReal)
    (Wu : (⟨2, ![k₁, n]⟩ : Shape).Idx → EReal) (Wv : (⟨2, ![k₂, n]⟩ : Shape).Idx → EReal)
    (b : (⟨2, ![1, n]⟩ : Shape).Idx → EReal) (p' : Fin r') (p : Fin r) (q : Fin n)
    (hU : ∀ c : Fin k₁, U' (ix2 p' c) = U (ix2 p c)) (hV : ∀ c : Fin k₂, V' (ix2 p' c) = V (ix2 p c)) :
    layer2 U' V' Wu Wv b (ix2 p' q) = layer2 U V Wu Wv b (ix2 p q) := by
  refine biasRelu_rows _ _ b p' p q ?_
  show matProd U' Wu (ix2 p' q) + matProd V' Wv (ix2 p' q) = matProd U Wu (ix2 p q) + matProd V Wv (ix2 p q)
  rw [matProd_rows U U' Wu p' p q hU, matProd_rows V V' Wv p' p q hV]

theorem layer3_rows (U : (⟨2, ![r, k₁]⟩ : Shape).Idx → EReal) (U' : (⟨2, ![r', k₁]⟩ : Shape).Idx → EReal)
    (V : (⟨2, ![r, k₂]⟩ : Shape).Idx → EReal) (V' : (⟨2, ![r', k₂]⟩ : Shape).Idx → EReal)
    (E : (⟨2, ![r, k₃]⟩ : Shape).Idx → EReal) (E' : (⟨2, ![r', k₃]⟩ : Shape).Idx → EReal)
    (Wu : (⟨2, ![k₁, n]⟩ : Shape).Idx → EReal) (Wv : (⟨2, ![k₂, n]⟩ : Shape).Idx → EReal)
    (We : (⟨2, ![k₃, n]⟩ : Shape).Idx → EReal)
    (b : (⟨2, ![1, n]⟩ : Shape).Idx → EReal) (p' : Fin r') (p : Fin r) (q : Fin n)
    (hU : ∀ c : Fin k₁, U' (ix2 p' c) = U (ix2 p c)) (hV : ∀ c : Fin k₂, V' (ix2 p' c) = V (ix2 p c))
    (hE : ∀ c : Fin k₃, E' (ix2 p' c) = E (ix2 p c)) :
    layer3 U' V' E' Wu Wv We b (ix2 p' q) = layer3 U V E Wu Wv We b (ix2 p q) := by
  refine biasRelu_rows _ _ b p' p q ?_
  show matProd U' Wu (ix2 p' q) + matProd V' Wv (ix2 p' q) + matProd E' We (ix2 p' q)
    = matProd U Wu (ix2 p q) + matProd V Wv (ix2 p q) + matProd E We (ix2 p q)
  rw [matProd_rows U U' Wu p' p q hU, matProd_rows V V' Wv p' p q hV, matProd_rows E E' We p' p q hE]

end Cert.Lib.SplitLayers

end
-- ==== Proof.LibSigmoidLayer.lean ====
/-
  The last layer of a perceptron with the logistic function, over the extended reals.

  Entry (p, q) is logistic (∑ c, X(p, c) · W(c, q) + b(0, q)), where logistic x = 1 / (1 + e^(-x)) with the
  conventions of the extended reals at the infinities. A kernel's one logistic operation and the reference's
  expansion of it into a negation, an exponential, an addition to one and a quotient of one are this one function;
  the pattern 0x3F800000 is the real 1.
-/
import Idealize.ShloMosaic.PureOps.Ideal.Laws
import Idealize.ShloMosaic.Lib.ValueIdx
import Idealize.ShloMosaic.Lib.Pipeline.Value
import proofs.«102505_j36593121362326_1_alg».proof.Proof.LibBlockReads
import proofs.«102505_j36593121362326_1_alg».proof.Proof.LibMatProd
import proofs.«102505_j36593121362326_1_alg».proof.Proof.LibRowVector
import proofs.«102505_j36593121362326_1_alg».proof.Proof.LibSplitLayers

open scoped BigOperators

noncomputable section

namespace Cert.Lib.SigmoidLayer

open Idealize.ShloMosaic Idealize.ShloMosaic.ValueIdx Cert.Lib.MatProd Cert.Lib.RowVector Cert.Lib.SplitLayers

variable {r r' k n : Nat}

/-- Entry (p, q) is logistic (∑ c, X(p, c) · W(c, q) + b(0, q)). -/
def sigLayer (X : (⟨2, ![r, k]⟩ : Shape).Idx → EReal) (W : (⟨2, ![k, n]⟩ : Shape).Idx → EReal)
    (b : (⟨2, ![1, n]⟩ : Shape).Idx → EReal) : (⟨2, ![r, n]⟩ : Shape).Idx → EReal :=
  fun i => Ideal.logistic (matProd X W i + b (ix2 (0 : Fin 1) (⟨(i 1).val, idx2_lt1 i⟩ : Fin n)))

theorem sigLayer_apply (X : (⟨2, ![r, k]⟩ : Shape).Idx → EReal) (W : (⟨2, ![k, n]⟩ : Shape).Idx → EReal)
    (b : (⟨2, ![1, n]⟩ : Shape).Idx → EReal) (p : Fin r) (q : Fin n) :
    sigLayer X W b (ix2 p q) = Ideal.logistic (matProd X W (ix2 p q) + b (ix2 0 q)) := rfl

/-- An entry depends on one row of the input. -/
theorem sigLayer_rows (X : (⟨2, ![r, k]⟩ : Shape).Idx → EReal) (X' : (⟨2, ![r', k]⟩ : Shape).Idx → EReal)
    (W : (⟨2, ![k, n]⟩ : Shape).Idx → EReal) (b : (⟨2, ![1, n]⟩ : Shape).Idx → EReal)
    (p' : Fin r') (p : Fin r) (q : Fin n) (h : ∀ c : Fin k, X' (ix2 p' c) = X (ix2 p c)) :
    sigLayer X' W b (ix2 p' q) = sigLayer X W b (ix2 p q) := by
  rw [sigLayer_apply, sigLayer_apply, matProd_rows X X' W p' p q h]

/-- The kernel body's spelling: the product into zeros, the bias row broadcast down the rows, the logistic. -/
theorem body_sig {φ₁ φ₂ : FTy} (d : DotDims ⟨2, ![r, k]⟩ ⟨2, ![k, n]⟩ ⟨2, ![r, n]⟩)
    (hlc : d.lhsContracting = [1]) (hrc : d.rhsContracting = [0]) (hln : d.lhsNonContracting = [0])
    (hrn : d.rhsNonContracting = [1]) (hlb : d.lhsBatch = []) (hrb : d.rhsBatch = [])
    (X : FVec Ideal ⟨2, ![r, k]⟩ φ₁) (W : FVec Ideal ⟨2, ![k, n]⟩ φ₂) (b : FVec Ideal ⟨2, ![1, n]⟩ .f32)
    (hb : (⟨2, ![1, n]⟩ : Shape).Broadcasts ⟨2, ![r, n]⟩) :
    logistic (addf (matmul d none X W (constant ⟨2, ![r, n]⟩ .f32 0x00000000#32)) (broadcastTo ⟨2, ![r, n]⟩ b hb))
      = sigLayer X W b := by
  rw [matmul_zero_eq_matProd d hlc hrc hln hrn hlb hrb none]
  funext i
  obtain ⟨p, q, rfl⟩ : ∃ (p : Fin r) (q : Fin n), i = ix2 p q := ⟨i 0, i 1, eq_ix2 i⟩
  show Ideal.logistic (addf (matProd X W) (broadcastTo ⟨2, ![r, n]⟩ b hb) (ix2 p q)) = _
  rw [addf_apply, Cert.Lib.BlockReads.broadcast_row_apply]
  rfl

/-- The pattern of 1.0 is the real 1. -/
theorem ofBits_one : Ideal.ofBits .f32 0x3F800000#32 = 1 := by
  simp [Ideal.ofBits, Ideal.ieee, -EReal.coe_mul]; norm_num

/-- The reference's spelling: one over one plus the exponential of the negated affine layer. -/
theorem host_sig (d : DotDims ⟨2, ![r, k]⟩ ⟨2, ![k, n]⟩ ⟨2, ![r, n]⟩)
    (hlc : d.lhsContracting = [1]) (hrc : d.rhsContracting = [0]) (hln : d.lhsNonContracting = [0])
    (hrn : d.rhsNonContracting = [1]) (hlb : d.lhsBatch = []) (hrb : d.rhsBatch = [])
    (X : FVec Ideal ⟨2, ![r, k]⟩ .f32) (W : FVec Ideal ⟨2, ![k, n]⟩ .f32) (bv : FVec Ideal ⟨1, ![n]⟩ .f32)
    (h1 : (⟨1, ![n]⟩ : Shape).BroadcastsInDim ⟨2, ![1, n]⟩ ![1])
    (h2 : (⟨2, ![1, n]⟩ : Shape).BroadcastsInDim ⟨2, ![r, n]⟩ ![0, 1])
    (h3 : (⟨0, ![]⟩ : Shape).BroadcastsInDim ⟨2, ![r, n]⟩ ![]) :
    Host.divf (broadcastInDim ⟨2, ![r, n]⟩ ![] h3 (constant (F := Ideal) ⟨0, ![]⟩ .f32 0x3F800000#32))
      (addf (broadcastInDim ⟨2, ![r, n]⟩ ![] h3 (constant (F := Ideal) ⟨0, ![]⟩ .f32 0x3F800000#32))
        (Host.exp (Host.negf (addf (Host.dotGeneral d none X W)
          (broadcastInDim ⟨2, ![r, n]⟩ ![0, 1] h2 (broadcastInDim ⟨2, ![1, n]⟩ ![1] h1 bv))))))
    = sigLayer X W (asRow bv) := by
  have e3 : Host.dotGeneral d none X W = matProd X W := dotGeneral_eq_matProd d hlc hrc hln hrn hlb hrb none _ X W
  funext i
  obtain ⟨p, q, rfl⟩ : ∃ (p : Fin r) (q : Fin n), i = ix2 p q := ⟨i 0, i 1, eq_ix2 i⟩
  have e1 : broadcastInDim ⟨2, ![r, n]⟩ ![] h3 (constant (F := Ideal) ⟨0, ![]⟩ .f32 0x3F800000#32) (ix2 p q) = 1 := by
    rw [bcastInDim_scalar_apply, constant_apply, ofBits_one]
  have e2 : addf (Host.dotGeneral d none X W)
      (broadcastInDim ⟨2, ![r, n]⟩ ![0, 1] h2 (broadcastInDim ⟨2, ![1, n]⟩ ![1] h1 bv)) (ix2 p q)
      = matProd X W (ix2 p q) + asRow bv (ix2 0 q) := by
    rw [addf_apply, e3, bcastInDim_rows_apply, bcastInDim_eq_asRow]
  show Ideal.div (broadcastInDim ⟨2, ![r, n]⟩ ![] h3 (constant (F := Ideal) ⟨0, ![]⟩ .f32 0x3F800000#32) (ix2 p q))
      (broadcastInDim ⟨2, ![r, n]⟩ ![] h3 (constant (F := Ideal) ⟨0, ![]⟩ .f32 0x3F800000#32) (ix2 p q)
        + Ideal.exp (-(addf (Host.dotGeneral d none X W)
          (broadcastInDim ⟨2, ![r, n]⟩ ![0, 1] h2 (broadcastInDim ⟨2, ![1, n]⟩ ![1] h1 bv)) (ix2 p q)))) = _
  rw [e1, e2]
  rfl

end Cert.Lib.SigmoidLayer

end
-- ==== Proof.LibLayerReads.lean ====
/-
  Entries of the dense layers read at an arbitrary index of the result, on the extended reals.

  An entry of a matrix product depends on one row of the left operand and one column of the right; an entry of a
  bias-and-clamp on one entry of the matrix and one entry of the bias row; an entry of a logistic layer on one row of
  the input, one column of the weights and one entry of the bias row. So a layer of a block of rows, read at a row
  and a column of the block, is the layer of the whole arrays read at the index that row and column have in the
  whole. The statements take the index of the whole as it comes (not split into coordinates), with the agreement
  of the rows, columns and bias entries as hypotheses. Nothing here mentions a program.
-/
import Idealize.ShloMosaic.PureOps.Ideal.Laws
import Idealize.ShloMosaic.Lib.ValueIdx
import proofs.«102505_j36593121362326_1_alg».proof.Proof.LibMatProd
import proofs.«102505_j36593121362326_1_alg».proof.Proof.LibBiasRelu
import proofs.«102505_j36593121362326_1_alg».proof.Proof.LibSigmoidLayer

open scoped BigOperators

noncomputable section

namespace Cert.Lib.LayerReads

open Idealize.ShloMosaic Idealize.ShloMosaic.ValueIdx Cert.Lib.MatProd Cert.Lib.BiasRelu Cert.Lib.SigmoidLayer

/-- The offsets of a rank-2 window that starts at the origin. -/
theorem origin2 : (![0, 0] : Fin 2 → Nat) = fun _ => 0 := funext fun a => by fin_cases a <;> rfl

variable {m k n m' n' : Nat}

/-- An entry of a product read at any index: it depends on one row of the left operand and one column of the right. -/
theorem matProd_at (A : (⟨2, ![m, k]⟩ : Shape).Idx → EReal) (A' : (⟨2, ![m', k]⟩ : Shape).Idx → EReal)
    (B : (⟨2, ![k, n]⟩ : Shape).Idx → EReal) (B' : (⟨2, ![k, n']⟩ : Shape).Idx → EReal)
    (y : Fin m') (b : Fin n') (i : (⟨2, ![m, n]⟩ : Shape).Idx)
    (hA : ∀ c : Fin k, A' (ix2 y c) = A (ix2 (i 0) c)) (hB : ∀ c : Fin k, B' (ix2 c b) = B (ix2 c (i 1))) :
    matProd A' B' (ix2 y b) = matProd A B i := by
  rw [matProd_apply]
  unfold matProd
  exact Finset.sum_congr rfl fun c _ => by rw [hA c, hB c]

/-- An entry of a bias-and-clamp read at any index in column q. -/
theorem biasRelu_at (X : (⟨2, ![m, n]⟩ : Shape).Idx → EReal) (X' : (⟨2, ![m', n]⟩ : Shape).Idx → EReal)
    (b b' : (⟨2, ![1, n]⟩ : Shape).Idx → EReal) (y : Fin m') (q : Fin n) (i : (⟨2, ![m, n]⟩ : Shape).Idx)
    (hq : (i 1).val = q.val) (hX : X' (ix2 y q) = X i) (hb : b' (ix2 0 q) = b (ix2 0 q)) :
    biasRelu X' b' (ix2 y q) = biasRelu X b i := by
  have e : (⟨(i 1).val, idx2_lt1 i⟩ : Fin n) = q := Fin.ext hq
  show max (X' (ix2 y q) + b' (ix2 0 q)) _ = max (X i + b (ix2 (0 : Fin 1) (⟨(i 1).val, idx2_lt1 i⟩ : Fin n))) _
  rw [e, hX, hb]

/-- An entry of a logistic layer read at any index in column q. -/
theorem sigLayer_at (X : (⟨2, ![m, k]⟩ : Shape).Idx → EReal) (X' : (⟨2, ![m', k]⟩ : Shape).Idx → EReal)
    (W W' : (⟨2, ![k, n]⟩ : Shape).Idx → EReal) (b b' : (⟨2, ![1, n]⟩ : Shape).Idx → EReal)
    (y : Fin m') (q : Fin n) (i : (⟨2, ![m, n]⟩ : Shape).Idx)
    (hq : (i 1).val = q.val) (hM : matProd X' W' (ix2 y q) = matProd X W i) (hb : b' (ix2 0 q) = b (ix2 0 q)) :
    sigLayer X' W' b' (ix2 y q) = sigLayer X W b i := by
  have e : (⟨(i 1).val, idx2_lt1 i⟩ : Fin n) = q := Fin.ext hq
  show Ideal.logistic (matProd X' W' (ix2 y q) + b' (ix2 0 q))
    = Ideal.logistic (matProd X W i + b (ix2 (0 : Fin 1) (⟨(i 1).val, idx2_lt1 i⟩ : Fin n)))
  rw [e, hM, hb]

end Cert.Lib.LayerReads

end
-- ==== Proof.Region0.lean ====
/-
  Region 0: a matrix product, block of rows by block of rows.

  The grid has 25 points; at point t the body reads rows 2000·t … 2000·t + 1999 of the left operand and the whole right
  operand, multiplies them (the operands read at a narrower float format, which changes nothing on the extended
  reals) into a zero accumulator, and writes rows 2000·t … 2000·t + 1999 of the output. Row r of a product depends on
  row r of the left operand only, and the 25 blocks cover the 50000 rows: the output array ends at the product of
  the whole arrays.
-/
import proofs.«102505_j36593121362326_1_alg».proof.Proof.Gen.KernelIdeal.Frame
import proofs.«102505_j36593121362326_1_alg».proof.Proof.LibLayerReads
import Idealize.ShloMosaic.Lib.Pipeline.Value
import Idealize.ShloMosaic.Lib.ValueIdx

set_option maxRecDepth 16384

open scoped BigOperators

noncomputable section

namespace Cert.KernelIdeal.Layers

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Lib.MatProd Cert.Lib.BiasRelu Cert.Lib.SplitLayers Cert.Lib.SigmoidLayer Cert.Lib.LayerReads Cert.Lib.RowVector

variable (V : (c : Dev nD) → (b : Ref sig .tc) → Buf (Elt Ideal) ((c : Thread nD τ).loc b))

/-- The body's value: the product of the block of rows with the right operand. -/
theorem pay0 (x0 : Vec Ideal S2000x128 .f32) (x1 : Vec Ideal S128x64 .f32) : k0_pay1 x0 x1 = matProd x0 x1 := by
  refine (matmul_zero_eq_matProd dot_S2000x128_S128x64_S2000x64_1_0_0_1_n_n rfl rfl rfl rfl rfl rfl none _ _).trans ?_
  rfl

/-- The blocks' positions: the left operand's and the output's row block at point t is the same, the right operand's
    block is the whole. -/
theorem idx0 : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 :=
  (by decide +kernel : ∀ t : Fin grid0.N, _)

/-- What point t writes back is block t of the product of the whole arrays. -/
theorem flushed0 (c : Dev nD) (t : Fin cfg0.N) :
    (dat0 V c).flushed 2 t = ((cfg0.win 2).blk t).view.read (Elt Ideal) (matProd (V c main_arg0) (V c main_arg3)) := by
  show (cfg0.win 2).cut (grid0.coords t) ((dat0 V c).after 2 t) = _
  rw [after0_2]
  unfold out0_2
  rw [View.canon_unit_zero origin2]
  simp only [View.ld_unit_zero (S := S2000x128) origin2, View.ld_unit_zero (S := S128x64) origin2]
  rw [pay0]
  obtain ⟨e0, e1, e2, e3, e4⟩ := idx0 t
  funext j
  obtain ⟨p, q, rfl⟩ : ∃ (p : Fin 2000) (q : Fin 64), j = ix2 p q := ⟨j 0, j 1, eq_ix2 j⟩
  show matProd (iblk0 V c 0 t) (iblk0 V c 1 t) (ix2 p q)
    = matProd (V c main_arg0) (V c main_arg3) (((cfg0.win 2).blk t).view.emb (ix2 p q))
  refine matProd_at _ _ _ _ p q _ (fun k => ?_) (fun k => ?_)
  · show V c main_arg0 (((cfg0.win 0).blk t).view.emb (ix2 p k)) = V c main_arg0 (ix2 ((((cfg0.win 2).blk t).view.emb (ix2 p q)) 0) k)
    congr 1
    funext a; apply Fin.ext
    match a with
    | ⟨0, _⟩ => show win0_0.index t (0 : Fin 2) * 2000 + 1 * p.val = win0_2.index t (0 : Fin 2) * 2000 + 1 * p.val; omega
    | ⟨1, _⟩ => show win0_0.index t (1 : Fin 2) * 128 + 1 * k.val = k.val; omega
  · show V c main_arg3 (((cfg0.win 1).blk t).view.emb (ix2 k q)) = V c main_arg3 (ix2 k ((((cfg0.win 2).blk t).view.emb (ix2 p q)) 1))
    congr 1
    funext a; apply Fin.ext
    match a with
    | ⟨0, _⟩ => show win0_1.index t (0 : Fin 2) * 128 + 1 * k.val = k.val; omega
    | ⟨1, _⟩ => show win0_1.index t (1 : Fin 2) * 64 + 1 * q.val = win0_2.index t (1 : Fin 2) * 64 + 1 * q.val; omega

theorem onto0 : ∀ q0 : Fin 25, ∃ t : Fin cfg0.N, win0_2.index t = ![q0.val, 0] :=
  (by decide +kernel : ∀ q0 : Fin 25, ∃ t : Fin grid0.N, win0_2.index t = ![q0.val, 0])

theorem mem_blk0 (t : Fin cfg0.N) (i : S50000x64.Idx) :
    i ∈ ((cfg0.win 2).blk t).view.set ↔ ∀ a : Fin 2, win0_2.index t a * S2000x64.size a ≤ (i a).val ∧ (i a).val < win0_2.index t a * S2000x64.size a + S2000x64.size a := by
  show i ∈ ((View.whole main_v32).slice (win0_2.rect t)).set ↔ _
  rw [View.set_slice_whole, Rect.mem_set_unit]
  exact Iff.rfl

/-- Row r of the output is written by point r / 2000. -/
theorem cover0 (i : S50000x64.Idx) : ∃ t : Fin cfg0.N, (cfg0.win 2).flush t = true ∧ i ∈ ((cfg0.win 2).blk t).view.set := by
  have hi0 : (i 0).val < 50000 := (i 0).isLt
  have hi1 : (i 1).val < 64 := (i 1).isLt
  obtain ⟨t, ht⟩ := onto0 ⟨(i 0).val / 2000, by omega⟩
  have q0 : win0_2.index t (0 : Fin 2) = (i 0).val / 2000 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 64 ≤ (i 1).val ∧ (i 1).val < win0_2.index t (1 : Fin 2) * 64 + 64; omega

/-- Region 0 leaves its output array at the product of the arrays it found. -/
theorem final0 (c : Dev nD) : (dat0 V c).arrAt 2 cfg0.N = matProd (V c main_arg0) (V c main_arg3) :=
  (dat0 V c).arrAt_eq_of_cover 2 _ (fun t _ => flushed0 V c t) cover0

end Cert.KernelIdeal.Layers

end
-- ==== Proof.Region1.lean ====
/-
  Region 1: a bias row added to every row and the result clamped below at zero, block of rows by block of rows.

  At point t the body reads rows 2000·t … 2000·t + 1999 of the matrix and the whole 1×64 bias row, adds the row to each
  row of the block, takes the maximum with zero, and writes rows 2000·t … 2000·t + 1999 of the output. An entry depends
  on one entry of the matrix and one of the bias row, and the 25 blocks cover the 50000 rows: the output array ends at
  the bias-and-clamp of the whole arrays.
-/
import proofs.«102505_j36593121362326_1_alg».proof.Proof.Gen.KernelIdeal.Frame
import proofs.«102505_j36593121362326_1_alg».proof.Proof.LibLayerReads
import Idealize.ShloMosaic.Lib.Pipeline.Value
import Idealize.ShloMosaic.Lib.ValueIdx

set_option maxRecDepth 16384

open scoped BigOperators

noncomputable section

namespace Cert.KernelIdeal.Layers

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Lib.MatProd Cert.Lib.BiasRelu Cert.Lib.SplitLayers Cert.Lib.SigmoidLayer Cert.Lib.LayerReads Cert.Lib.RowVector

variable (V : (c : Dev nD) → (b : Ref sig .tc) → Buf (Elt Ideal) ((c : Thread nD τ).loc b))

/-- The body's value on a block. -/
theorem pay1 (x0 : Vec Ideal S2000x64 .f32) (x1 : Vec Ideal S1x64 .f32) : k1_pay1 x0 x1 = biasRelu x0 x1 :=
  Cert.Lib.BiasRelu.body_eq x0 x1 _ _ _

/-- The blocks' positions: the matrix's and the output's row block at point t is the same, the bias row's block is
    the whole. -/
theorem idx1 : ∀ t : Fin cfg1.N, win1_0.index t (0 : Fin 2) = win1_2.index t (0 : Fin 2)
    ∧ win1_0.index t (1 : Fin 2) = 0 ∧ win1_1.index t (0 : Fin 2) = 0 ∧ win1_1.index t (1 : Fin 2) = 0
    ∧ win1_2.index t (1 : Fin 2) = 0 :=
  (by decide +kernel : ∀ t : Fin grid1.N, _)

/-- What point t writes back is block t of the bias-and-clamp of the whole arrays. -/
theorem flushed1 (c : Dev nD) (t : Fin cfg1.N) :
    (dat1 V c).flushed 2 t = ((cfg1.win 2).blk t).view.read (Elt Ideal) (biasRelu (V c main_v45) (V c main_v46)) := by
  show (cfg1.win 2).cut (grid1.coords t) ((dat1 V c).after 2 t) = _
  rw [after1_2]
  unfold out1_2
  rw [View.canon_unit_zero origin2]
  simp only [View.ld_unit_zero (S := S2000x64) origin2, View.ld_unit_zero (S := S1x64) origin2]
  rw [pay1]
  obtain ⟨e0, e1, e2, e3, e4⟩ := idx1 t
  funext j
  obtain ⟨p, q, rfl⟩ : ∃ (p : Fin 2000) (q : Fin 64), j = ix2 p q := ⟨j 0, j 1, eq_ix2 j⟩
  show biasRelu (iblk1 V c 0 t) (iblk1 V c 1 t) (ix2 p q)
    = biasRelu (V c main_v45) (V c main_v46) (((cfg1.win 2).blk t).view.emb (ix2 p q))
  refine biasRelu_at _ _ _ _ p q _ ?_ ?_ ?_
  · show win1_2.index t (1 : Fin 2) * 64 + 1 * q.val = q.val; omega
  · show V c main_v45 (((cfg1.win 0).blk t).view.emb (ix2 p q)) = V c main_v45 (((cfg1.win 2).blk t).view.emb (ix2 p q))
    refine congrArg _ ?_
    funext a; apply Fin.ext
    match a with
    | ⟨0, _⟩ => show win1_0.index t (0 : Fin 2) * 2000 + 1 * p.val = win1_2.index t (0 : Fin 2) * 2000 + 1 * p.val; omega
    | ⟨1, _⟩ => show win1_0.index t (1 : Fin 2) * 64 + 1 * q.val = win1_2.index t (1 : Fin 2) * 64 + 1 * q.val; omega
  · show V c main_v46 (((cfg1.win 1).blk t).view.emb (ix2 0 q)) = V c main_v46 (ix2 0 q)
    refine congrArg _ ?_
    funext a; apply Fin.ext
    match a with
    | ⟨0, _⟩ => show win1_1.index t (0 : Fin 2) * 1 + 1 * 0 = 0; omega
    | ⟨1, _⟩ => show win1_1.index t (1 : Fin 2) * 64 + 1 * q.val = q.val; omega

theorem onto1 : ∀ q0 : Fin 25, ∃ t : Fin cfg1.N, win1_2.index t = ![q0.val, 0] :=
  (by decide +kernel : ∀ q0 : Fin 25, ∃ t : Fin grid1.N, win1_2.index t = ![q0.val, 0])

theorem mem_blk1 (t : Fin cfg1.N) (i : S50000x64.Idx) :
    i ∈ ((cfg1.win 2).blk t).view.set ↔ ∀ a : Fin 2, win1_2.index t a * S2000x64.size a ≤ (i a).val ∧ (i a).val < win1_2.index t a * S2000x64.size a + S2000x64.size a := by
  show i ∈ ((View.whole main_v47).slice (win1_2.rect t)).set ↔ _
  rw [View.set_slice_whole, Rect.mem_set_unit]
  exact Iff.rfl

/-- Row r of the output is written by point r / 2000. -/
theorem cover1 (i : S50000x64.Idx) : ∃ t : Fin cfg1.N, (cfg1.win 2).flush t = true ∧ i ∈ ((cfg1.win 2).blk t).view.set := by
  have hi0 : (i 0).val < 50000 := (i 0).isLt
  have hi1 : (i 1).val < 64 := (i 1).isLt
  obtain ⟨t, ht⟩ := onto1 ⟨(i 0).val / 2000, by omega⟩
  have q0 : win1_2.index t (0 : Fin 2) = (i 0).val / 2000 := congrFun ht 0
  have q1 : win1_2.index t (1 : Fin 2) = 0 := congrFun ht 1
  refine ⟨t, flush1_2 t, ?_⟩
  rw [mem_blk1]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 64 ≤ (i 1).val ∧ (i 1).val < win1_2.index t (1 : Fin 2) * 64 + 64; omega

/-- Region 1 leaves its output array at the bias-and-clamp of the arrays it found. -/
theorem final1 (c : Dev nD) : (dat1 V c).arrAt 2 cfg1.N = biasRelu (V c main_v45) (V c main_v46) :=
  (dat1 V c).arrAt_eq_of_cover 2 _ (fun t _ => flushed1 V c t) cover1

end Cert.KernelIdeal.Layers

end
-- ==== Proof.Region2.lean ====
/-
  Region 2: a matrix product, block of rows by block of rows.

  The grid has 25 points; at point t the body reads rows 2000·t … 2000·t + 1999 of the left operand and the whole right
  operand, multiplies them (the operands read at a narrower float format, which changes nothing on the extended
  reals) into a zero accumulator, and writes rows 2000·t … 2000·t + 1999 of the output. Row r of a product depends on
  row r of the left operand only, and the 25 blocks cover the 50000 rows: the output array ends at the product of
  the whole arrays.
-/
import proofs.«102505_j36593121362326_1_alg».proof.Proof.Gen.KernelIdeal.Frame
import proofs.«102505_j36593121362326_1_alg».proof.Proof.LibLayerReads
import Idealize.ShloMosaic.Lib.Pipeline.Value
import Idealize.ShloMosaic.Lib.ValueIdx

set_option maxRecDepth 16384

open scoped BigOperators

noncomputable section

namespace Cert.KernelIdeal.Layers

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Lib.MatProd Cert.Lib.BiasRelu Cert.Lib.SplitLayers Cert.Lib.SigmoidLayer Cert.Lib.LayerReads Cert.Lib.RowVector

variable (V : (c : Dev nD) → (b : Ref sig .tc) → Buf (Elt Ideal) ((c : Thread nD τ).loc b))

/-- The body's value: the product of the block of rows with the right operand. -/
theorem pay2 (x0 : Vec Ideal S2000x64 .f32) (x1 : Vec Ideal S64x64 .f32) : k2_pay1 x0 x1 = matProd x0 x1 := by
  refine (matmul_zero_eq_matProd dot_S2000x64_S64x64_S2000x64_1_0_0_1_n_n rfl rfl rfl rfl rfl rfl none _ _).trans ?_
  show matProd (shapeCast S2000x64 x0 shapeCasts_S2000x64_S2000x64) x1 = matProd x0 x1
  rw [shapeCast_self]

/-- The blocks' positions: the left operand's and the output's row block at point t is the same, the right operand's
    block is the whole. -/
theorem idx2 : ∀ t : Fin cfg2.N, win2_0.index t (0 : Fin 2) = win2_2.index t (0 : Fin 2)
    ∧ win2_0.index t (1 : Fin 2) = 0 ∧ win2_1.index t (0 : Fin 2) = 0 ∧ win2_1.index t (1 : Fin 2) = 0
    ∧ win2_2.index t (1 : Fin 2) = 0 :=
  (by decide +kernel : ∀ t : Fin grid2.N, _)

/-- What point t writes back is block t of the product of the whole arrays. -/
theorem flushed2 (c : Dev nD) (t : Fin cfg2.N) :
    (dat2 V c).flushed 2 t = ((cfg2.win 2).blk t).view.read (Elt Ideal) (matProd (V c main_v47) (V c main_arg5)) := by
  show (cfg2.win 2).cut (grid2.coords t) ((dat2 V c).after 2 t) = _
  rw [after2_2]
  unfold out2_2
  rw [View.canon_unit_zero origin2]
  simp only [View.ld_unit_zero (S := S2000x64) origin2, View.ld_unit_zero (S := S64x64) origin2]
  rw [pay2]
  obtain ⟨e0, e1, e2, e3, e4⟩ := idx2 t
  funext j
  obtain ⟨p, q, rfl⟩ : ∃ (p : Fin 2000) (q : Fin 64), j = ix2 p q := ⟨j 0, j 1, eq_ix2 j⟩
  show matProd (iblk2 V c 0 t) (iblk2 V c 1 t) (ix2 p q)
    = matProd (V c main_v47) (V c main_arg5) (((cfg2.win 2).blk t).view.emb (ix2 p q))
  refine matProd_at _ _ _ _ p q _ (fun k => ?_) (fun k => ?_)
  · show V c main_v47 (((cfg2.win 0).blk t).view.emb (ix2 p k)) = V c main_v47 (ix2 ((((cfg2.win 2).blk t).view.emb (ix2 p q)) 0) k)
    congr 1
    funext a; apply Fin.ext
    match a with
    | ⟨0, _⟩ => show win2_0.index t (0 : Fin 2) * 2000 + 1 * p.val = win2_2.index t (0 : Fin 2) * 2000 + 1 * p.val; omega
    | ⟨1, _⟩ => show win2_0.index t (1 : Fin 2) * 64 + 1 * k.val = k.val; omega
  · show V c main_arg5 (((cfg2.win 1).blk t).view.emb (ix2 k q)) = V c main_arg5 (ix2 k ((((cfg2.win 2).blk t).view.emb (ix2 p q)) 1))
    congr 1
    funext a; apply Fin.ext
    match a with
    | ⟨0, _⟩ => show win2_1.index t (0 : Fin 2) * 64 + 1 * k.val = k.val; omega
    | ⟨1, _⟩ => show win2_1.index t (1 : Fin 2) * 64 + 1 * q.val = win2_2.index t (1 : Fin 2) * 64 + 1 * q.val; omega

theorem onto2 : ∀ q0 : Fin 25, ∃ t : Fin cfg2.N, win2_2.index t = ![q0.val, 0] :=
  (by decide +kernel : ∀ q0 : Fin 25, ∃ t : Fin grid2.N, win2_2.index t = ![q0.val, 0])

theorem mem_blk2 (t : Fin cfg2.N) (i : S50000x64.Idx) :
    i ∈ ((cfg2.win 2).blk t).view.set ↔ ∀ a : Fin 2, win2_2.index t a * S2000x64.size a ≤ (i a).val ∧ (i a).val < win2_2.index t a * S2000x64.size a + S2000x64.size a := by
  show i ∈ ((View.whole main_v48).slice (win2_2.rect t)).set ↔ _
  rw [View.set_slice_whole, Rect.mem_set_unit]
  exact Iff.rfl

/-- Row r of the output is written by point r / 2000. -/
theorem cover2 (i : S50000x64.Idx) : ∃ t : Fin cfg2.N, (cfg2.win 2).flush t = true ∧ i ∈ ((cfg2.win 2).blk t).view.set := by
  have hi0 : (i 0).val < 50000 := (i 0).isLt
  have hi1 : (i 1).val < 64 := (i 1).isLt
  obtain ⟨t, ht⟩ := onto2 ⟨(i 0).val / 2000, by omega⟩
  have q0 : win2_2.index t (0 : Fin 2) = (i 0).val / 2000 := congrFun ht 0
  have q1 : win2_2.index t (1 : Fin 2) = 0 := congrFun ht 1
  refine ⟨t, flush2_2 t, ?_⟩
  rw [mem_blk2]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 64 ≤ (i 1).val ∧ (i 1).val < win2_2.index t (1 : Fin 2) * 64 + 64; omega

/-- Region 2 leaves its output array at the product of the arrays it found. -/
theorem final2 (c : Dev nD) : (dat2 V c).arrAt 2 cfg2.N = matProd (V c main_v47) (V c main_arg5) :=
  (dat2 V c).arrAt_eq_of_cover 2 _ (fun t _ => flushed2 V c t) cover2

end Cert.KernelIdeal.Layers

end
-- ==== Proof.Region3.lean ====
/-
  Region 3: a bias row added to every row and the result clamped below at zero, block of rows by block of rows.

  At point t the body reads rows 2000·t … 2000·t + 1999 of the matrix and the whole 1×64 bias row, adds the row to each
  row of the block, takes the maximum with zero, and writes rows 2000·t … 2000·t + 1999 of the output. An entry depends
  on one entry of the matrix and one of the bias row, and the 25 blocks cover the 50000 rows: the output array ends at
  the bias-and-clamp of the whole arrays.
-/
import proofs.«102505_j36593121362326_1_alg».proof.Proof.Gen.KernelIdeal.Frame
import proofs.«102505_j36593121362326_1_alg».proof.Proof.LibLayerReads
import Idealize.ShloMosaic.Lib.Pipeline.Value
import Idealize.ShloMosaic.Lib.ValueIdx

set_option maxRecDepth 16384

open scoped BigOperators

noncomputable section

namespace Cert.KernelIdeal.Layers

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Lib.MatProd Cert.Lib.BiasRelu Cert.Lib.SplitLayers Cert.Lib.SigmoidLayer Cert.Lib.LayerReads Cert.Lib.RowVector

variable (V : (c : Dev nD) → (b : Ref sig .tc) → Buf (Elt Ideal) ((c : Thread nD τ).loc b))

/-- The body's value on a block. -/
theorem pay3 (x0 : Vec Ideal S2000x64 .f32) (x1 : Vec Ideal S1x64 .f32) : k3_pay1 x0 x1 = biasRelu x0 x1 :=
  Cert.Lib.BiasRelu.body_eq x0 x1 _ _ _

/-- The blocks' positions: the matrix's and the output's row block at point t is the same, the bias row's block is
    the whole. -/
theorem idx3 : ∀ t : Fin cfg3.N, win3_0.index t (0 : Fin 2) = win3_2.index t (0 : Fin 2)
    ∧ win3_0.index t (1 : Fin 2) = 0 ∧ win3_1.index t (0 : Fin 2) = 0 ∧ win3_1.index t (1 : Fin 2) = 0
    ∧ win3_2.index t (1 : Fin 2) = 0 :=
  (by decide +kernel : ∀ t : Fin grid3.N, _)

/-- What point t writes back is block t of the bias-and-clamp of the whole arrays. -/
theorem flushed3 (c : Dev nD) (t : Fin cfg3.N) :
    (dat3 V c).flushed 2 t = ((cfg3.win 2).blk t).view.read (Elt Ideal) (biasRelu (V c main_v61) (V c main_v62)) := by
  show (cfg3.win 2).cut (grid3.coords t) ((dat3 V c).after 2 t) = _
  rw [after3_2]
  unfold out3_2
  rw [View.canon_unit_zero origin2]
  simp only [View.ld_unit_zero (S := S2000x64) origin2, View.ld_unit_zero (S := S1x64) origin2]
  rw [pay3]
  obtain ⟨e0, e1, e2, e3, e4⟩ := idx3 t
  funext j
  obtain ⟨p, q, rfl⟩ : ∃ (p : Fin 2000) (q : Fin 64), j = ix2 p q := ⟨j 0, j 1, eq_ix2 j⟩
  show biasRelu (iblk3 V c 0 t) (iblk3 V c 1 t) (ix2 p q)
    = biasRelu (V c main_v61) (V c main_v62) (((cfg3.win 2).blk t).view.emb (ix2 p q))
  refine biasRelu_at _ _ _ _ p q _ ?_ ?_ ?_
  · show win3_2.index t (1 : Fin 2) * 64 + 1 * q.val = q.val; omega
  · show V c main_v61 (((cfg3.win 0).blk t).view.emb (ix2 p q)) = V c main_v61 (((cfg3.win 2).blk t).view.emb (ix2 p q))
    refine congrArg _ ?_
    funext a; apply Fin.ext
    match a with
    | ⟨0, _⟩ => show win3_0.index t (0 : Fin 2) * 2000 + 1 * p.val = win3_2.index t (0 : Fin 2) * 2000 + 1 * p.val; omega
    | ⟨1, _⟩ => show win3_0.index t (1 : Fin 2) * 64 + 1 * q.val = win3_2.index t (1 : Fin 2) * 64 + 1 * q.val; omega
  · show V c main_v62 (((cfg3.win 1).blk t).view.emb (ix2 0 q)) = V c main_v62 (ix2 0 q)
    refine congrArg _ ?_
    funext a; apply Fin.ext
    match a with
    | ⟨0, _⟩ => show win3_1.index t (0 : Fin 2) * 1 + 1 * 0 = 0; omega
    | ⟨1, _⟩ => show win3_1.index t (1 : Fin 2) * 64 + 1 * q.val = q.val; omega

theorem onto3 : ∀ q0 : Fin 25, ∃ t : Fin cfg3.N, win3_2.index t = ![q0.val, 0] :=
  (by decide +kernel : ∀ q0 : Fin 25, ∃ t : Fin grid3.N, win3_2.index t = ![q0.val, 0])

theorem mem_blk3 (t : Fin cfg3.N) (i : S50000x64.Idx) :
    i ∈ ((cfg3.win 2).blk t).view.set ↔ ∀ a : Fin 2, win3_2.index t a * S2000x64.size a ≤ (i a).val ∧ (i a).val < win3_2.index t a * S2000x64.size a + S2000x64.size a := by
  show i ∈ ((View.whole main_v63).slice (win3_2.rect t)).set ↔ _
  rw [View.set_slice_whole, Rect.mem_set_unit]
  exact Iff.rfl

/-- Row r of the output is written by point r / 2000. -/
theorem cover3 (i : S50000x64.Idx) : ∃ t : Fin cfg3.N, (cfg3.win 2).flush t = true ∧ i ∈ ((cfg3.win 2).blk t).view.set := by
  have hi0 : (i 0).val < 50000 := (i 0).isLt
  have hi1 : (i 1).val < 64 := (i 1).isLt
  obtain ⟨t, ht⟩ := onto3 ⟨(i 0).val / 2000, by omega⟩
  have q0 : win3_2.index t (0 : Fin 2) = (i 0).val / 2000 := congrFun ht 0
  have q1 : win3_2.index t (1 : Fin 2) = 0 := congrFun ht 1
  refine ⟨t, flush3_2 t, ?_⟩
  rw [mem_blk3]
  intro a
  match a with
  | ⟨0, _⟩ => show win3_2.index t (0 : Fin 2) * 2000 ≤ (i 0).val ∧ (i 0).val < win3_2.index t (0 : Fin 2) * 2000 + 2000; omega
  | ⟨1, _⟩ => show win3_2.index t (1 : Fin 2) * 64 ≤ (i 1).val ∧ (i 1).val < win3_2.index t (1 : Fin 2) * 64 + 64; omega

/-- Region 3 leaves its output array at the bias-and-clamp of the arrays it found. -/
theorem final3 (c : Dev nD) : (dat3 V c).arrAt 2 cfg3.N = biasRelu (V c main_v61) (V c main_v62) :=
  (dat3 V c).arrAt_eq_of_cover 2 _ (fun t _ => flushed3 V c t) cover3

end Cert.KernelIdeal.Layers

end
-- ==== Proof.Region4.lean ====
/-
  Region 4: the logistic output layer, block of rows by block of rows.

  At point t the body reads rows 2000·t … 2000·t + 1999 of the hidden layer, the whole 64×1 weight column and the 1×1
  bias, multiplies (the operands read at a narrower float format, which changes nothing on the extended reals) into a
  zero accumulator, adds the bias, applies the logistic function, and writes rows 2000·t … 2000·t + 1999 of the output
  column. An entry depends on one row of the hidden layer, and the 25 blocks cover the 50000 rows: the output array
  ends at the logistic layer of the whole arrays.
-/
import proofs.«102505_j36593121362326_1_alg».proof.Proof.Gen.KernelIdeal.Frame
import proofs.«102505_j36593121362326_1_alg».proof.Proof.LibLayerReads
import Idealize.ShloMosaic.Lib.Pipeline.Value
import Idealize.ShloMosaic.Lib.ValueIdx

set_option maxRecDepth 16384

open scoped BigOperators

noncomputable section

namespace Cert.KernelIdeal.Layers

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Lib.MatProd Cert.Lib.BiasRelu Cert.Lib.SplitLayers Cert.Lib.SigmoidLayer Cert.Lib.LayerReads Cert.Lib.RowVector

variable (V : (c : Dev nD) → (b : Ref sig .tc) → Buf (Elt Ideal) ((c : Thread nD τ).loc b))

/-- The body's value on a block. -/
theorem pay4 (x0 : Vec Ideal S2000x64 .f32) (x1 : Vec Ideal S64x1 .f32) (x2 : Vec Ideal S1x1 .f32) :
    k4_pay1 x0 x1 x2 = sigLayer x0 x1 x2 := by
  refine (body_sig dot_S2000x64_S64x1_S2000x1_1_0_0_1_n_n rfl rfl rfl rfl rfl rfl _ _ _ _).trans ?_
  show sigLayer (shapeCast S2000x64 x0 shapeCasts_S2000x64_S2000x64) x1 (shapeCast S1x1 x2 shapeCasts_S1x1_S1x1) = sigLayer x0 x1 x2
  rw [shapeCast_self, shapeCast_self]

/-- The blocks' positions: the hidden layer's and the output's row block at point t is the same, the weights' and the
    bias's blocks are the whole. -/
theorem idx4 : ∀ t : Fin cfg4.N, win4_0.index t (0 : Fin 2) = win4_3.index t (0 : Fin 2)
    ∧ win4_0.index t (1 : Fin 2) = 0 ∧ win4_1.index t (0 : Fin 2) = 0 ∧ win4_1.index t (1 : Fin 2) = 0
    ∧ win4_2.index t (0 : Fin 2) = 0 ∧ win4_2.index t (1 : Fin 2) = 0 ∧ win4_3.index t (1 : Fin 2) = 0 :=
  (by decide +kernel : ∀ t : Fin grid4.N, _)

/-- What point t writes back is block t of the logistic layer of the whole arrays. -/
theorem flushed4 (c : Dev nD) (t : Fin cfg4.N) :
    (dat4 V c).flushed 3 t = ((cfg4.win 3).blk t).view.read (Elt Ideal) (sigLayer (V c main_v63) (V c main_arg7) (V c main_v64)) := by
  show (cfg4.win 3).cut (grid4.coords t) ((dat4 V c).after 3 t) = _
  rw [after4_3]
  unfold out4_3
  rw [View.canon_unit_zero origin2]
  simp only [View.ld_unit_zero (S := S2000x64) origin2, View.ld_unit_zero (S := S64x1) origin2, View.ld_unit_zero (S := S1x1) origin2]
  rw [pay4]
  obtain ⟨e0, e1, e2, e3, e4, e5, e6⟩ := idx4 t
  funext j
  obtain ⟨p, q, rfl⟩ : ∃ (p : Fin 2000) (q : Fin 1), j = ix2 p q := ⟨j 0, j 1, eq_ix2 j⟩
  show sigLayer (iblk4 V c 0 t) (iblk4 V c 1 t) (iblk4 V c 2 t) (ix2 p q)
    = sigLayer (V c main_v63) (V c main_arg7) (V c main_v64) (((cfg4.win 3).blk t).view.emb (ix2 p q))
  refine sigLayer_at _ _ _ _ _ _ p q _ ?_ ?_ ?_
  · show win4_3.index t (1 : Fin 2) * 1 + 1 * q.val = q.val; omega
  · refine matProd_at _ _ _ _ p q _ (fun k => ?_) (fun k => ?_)
    · show V c main_v63 (((cfg4.win 0).blk t).view.emb (ix2 p k)) = V c main_v63 (ix2 ((((cfg4.win 3).blk t).view.emb (ix2 p q)) 0) k)
      refine congrArg _ ?_
      funext a; apply Fin.ext
      match a with
      | ⟨0, _⟩ => show win4_0.index t (0 : Fin 2) * 2000 + 1 * p.val = win4_3.index t (0 : Fin 2) * 2000 + 1 * p.val; omega
      | ⟨1, _⟩ => show win4_0.index t (1 : Fin 2) * 64 + 1 * k.val = k.val; omega
    · show V c main_arg7 (((cfg4.win 1).blk t).view.emb (ix2 k q)) = V c main_arg7 (ix2 k ((((cfg4.win 3).blk t).view.emb (ix2 p q)) 1))
      refine congrArg _ ?_
      funext a; apply Fin.ext
      match a with
      | ⟨0, _⟩ => show win4_1.index t (0 : Fin 2) * 64 + 1 * k.val = k.val; omega
      | ⟨1, _⟩ => show win4_1.index t (1 : Fin 2) * 1 + 1 * q.val = win4_3.index t (1 : Fin 2) * 1 + 1 * q.val; omega
  · show V c main_v64 (((cfg4.win 2).blk t).view.emb (ix2 0 q)) = V c main_v64 (ix2 0 q)
    refine congrArg _ ?_
    funext a; apply Fin.ext
    match a with
    | ⟨0, _⟩ => show win4_2.index t (0 : Fin 2) * 1 + 1 * 0 = 0; omega
    | ⟨1, _⟩ => show win4_2.index t (1 : Fin 2) * 1 + 1 * q.val = q.val; omega

theorem onto4 : ∀ q0 : Fin 25, ∃ t : Fin cfg4.N, win4_3.index t = ![q0.val, 0] :=
  (by decide +kernel : ∀ q0 : Fin 25, ∃ t : Fin grid4.N, win4_3.index t = ![q0.val, 0])

theorem mem_blk4 (t : Fin cfg4.N) (i : S50000x1.Idx) :
    i ∈ ((cfg4.win 3).blk t).view.set ↔ ∀ a : Fin 2, win4_3.index t a * S2000x1.size a ≤ (i a).val ∧ (i a).val < win4_3.index t a * S2000x1.size a + S2000x1.size a := by
  show i ∈ ((View.whole main_v65).slice (win4_3.rect t)).set ↔ _
  rw [View.set_slice_whole, Rect.mem_set_unit]
  exact Iff.rfl

/-- Row r of the output is written by point r / 2000. -/
theorem cover4 (i : S50000x1.Idx) : ∃ t : Fin cfg4.N, (cfg4.win 3).flush t = true ∧ i ∈ ((cfg4.win 3).blk t).view.set := by
  have hi0 : (i 0).val < 50000 := (i 0).isLt
  have hi1 : (i 1).val < 1 := (i 1).isLt
  obtain ⟨t, ht⟩ := onto4 ⟨(i 0).val / 2000, by omega⟩
  have q0 : win4_3.index t (0 : Fin 2) = (i 0).val / 2000 := congrFun ht 0
  have q1 : win4_3.index t (1 : Fin 2) = 0 := congrFun ht 1
  refine ⟨t, flush4_3 t, ?_⟩
  rw [mem_blk4]
  intro a
  match a with
  | ⟨0, _⟩ => show win4_3.index t (0 : Fin 2) * 2000 ≤ (i 0).val ∧ (i 0).val < win4_3.index t (0 : Fin 2) * 2000 + 2000; omega
  | ⟨1, _⟩ => show win4_3.index t (1 : Fin 2) * 1 ≤ (i 1).val ∧ (i 1).val < win4_3.index t (1 : Fin 2) * 1 + 1; omega

/-- Region 4 leaves its output array at the logistic layer of the arrays it found. -/
theorem final4 (c : Dev nD) : (dat4 V c).arrAt 3 cfg4.N = sigLayer (V c main_v63) (V c main_arg7) (V c main_v64) :=
  (dat4 V c).arrAt_eq_of_cover 3 _ (fun t _ => flushed4 V c t) cover4

end Cert.KernelIdeal.Layers

end
-- ==== Proof.Glue.lean ====
/-
  The host's part of a graph convolution, and what each stretch of host operations leaves in the buffers the
  pipelined regions read.

  Between the dense layers the host passes messages along the edges: with s the source and d the destination of
  every edge (self loops appended), and ν the edges' normalised weights, a feature array h becomes
      agg h s d ν = scatter-add over the edges e of  ν(e) · h(s(e), ·)  into row d(e),
  spelt with the host's own gather (the sources' negative indices wrapped first, as the host does) and scatter-add.
  The function is never opened: both programs apply the same operations to the same arguments. Each stretch of
  host operations is a straight line in which every buffer is written once, so the buffer an operation writes holds
  that operation's function of the contents of its operands; composing them from the buffers the stretch finds gives
  the statements below, for any contents `U` the stretch starts from.
-/
import proofs.«102505_j36593121362326_1_alg».proof.Proof.Gen.KernelIdeal.Launch
import Idealize.ShloMosaic.Lib.StableHlo.Run
import Idealize.ShloMosaic.PureOps.Ideal

set_option maxRecDepth 16384

noncomputable section

namespace Cert.KernelIdeal.Glue

open Cert.KernelIdeal Cert.KernelIdeal.Gen
open Idealize.ShloMosaic Idealize.ShloMosaic.TcCoe Idealize.ShloMosaic.StableHlo Idealize.SL.Sem

/-- Gather indices as the host prepares them: a negative index has the extent 50000 added, and the vector is stood
    up as a column. -/
def wrapped (s : (⟨S1650000, .i32⟩ : BufTy).Contents (Elt Ideal)) : (⟨S1650000x1, .i32⟩ : BufTy).Contents (Elt Ideal) :=
  broadcastInDim S1650000x1 ![0] bcast_S1650000_S1650000x1_0
    (select (cmpi .slt s (broadcastInDim S1650000 ![] bcast_S_S1650000 (constantI S_ 32 0#32)))
      (addi s (broadcastInDim S1650000 ![] bcast_S_S1650000 (constantI S_ 32 50000#32))) s)

/-- One round of message passing: row d(e) of the result collects ν(e) times row s(e) of h, over all edges e. -/
def agg (h : (⟨S50000x64, .f32⟩ : BufTy).Contents (Elt Ideal)) (s d : (⟨S1650000, .i32⟩ : BufTy).Contents (Elt Ideal))
    (ν : (⟨S1650000, .f32⟩ : BufTy).Contents (Elt Ideal)) : (⟨S50000x64, .f32⟩ : BufTy).Contents (Elt Ideal) :=
  Host.scatterAdd scatter_S50000x64_S1650000x1_S1650000x64_1_0_0_1
    (broadcastInDim S50000x64 ![] bcast_S_S50000x64 (constant (F := Ideal) S_ .f32 0x00000000#32))
    (broadcastInDim S1650000x1 ![0] bcast_S1650000_S1650000x1_0 d)
    (mulf (Host.gather gather_S50000x64_S1650000x1_S1650000x64_1_0_n_n_0_1_164 h (wrapped s))
      (broadcastInDim S1650000x64 ![0, 1] bcast_S1650000x1_S1650000x64_0_1
        (broadcastInDim S1650000x1 ![0] bcast_S1650000_S1650000x1_0 ν)))

variable (U : Valuation τ sig (Elt Ideal))

set_option maxHeartbeats 4000000 in
/-- After the stretch between the first product and the first bias-and-clamp, the aggregate's buffer holds the
    aggregate of the product's buffer along the edges' buffers. -/
theorem stretch1_agg :
    StableHlo.after (hostOps1 (F := Ideal)) U (Proc.devRef .tc main_v45)
      = agg (U (Proc.devRef .tc main_v32)) (U (Proc.devRef .tc main_v5)) (U (Proc.devRef .tc main_v6))
          (U (Proc.devRef .tc main_v31)) := by
  after_results_simp
  rfl

/-- … and the bias row's buffer holds the first bias vector laid as a 1×64 row. -/
theorem stretch1_row :
    StableHlo.after (hostOps1 (F := Ideal)) U (Proc.devRef .tc main_v46)
      = shapeCast S1x64 (U (Proc.devRef .tc main_arg4)) shapeCasts_S64_S1x64 := by
  after_results
  rfl

set_option maxHeartbeats 4000000 in
/-- After the stretch between the second product and the second bias-and-clamp: the same, one layer on. -/
theorem stretch3_agg :
    StableHlo.after (hostOps3 (F := Ideal)) U (Proc.devRef .tc main_v61)
      = agg (U (Proc.devRef .tc main_v48)) (U (Proc.devRef .tc main_v5)) (U (Proc.devRef .tc main_v6))
          (U (Proc.devRef .tc main_v31)) := by
  after_results_simp
  rfl

theorem stretch3_row :
    StableHlo.after (hostOps3 (F := Ideal)) U (Proc.devRef .tc main_v62)
      = shapeCast S1x64 (U (Proc.devRef .tc main_arg6)) shapeCasts_S64_S1x64 := by
  after_results
  rfl

/-- Before the output layer the bias scalar is laid as a 1×1 array. -/
theorem stretch4_row :
    StableHlo.after (hostOps4 (F := Ideal)) U (Proc.devRef .tc main_v64)
      = shapeCast S1x1 (U (Proc.devRef .tc main_arg8)) shapeCasts_S1_S1x1 := by
  after_results
  rfl

/-- After the output layer its 50000×1 column is re-laid as a vector of 50000. -/
theorem stretch5_out :
    StableHlo.after (hostOps5 (F := Ideal)) U (Proc.devRef .tc main_v66)
      = shapeCast S50000 (U (Proc.devRef .tc main_v65)) shapeCasts_S50000x1_S50000 := by
  after_results
  rfl

end Cert.KernelIdeal.Glue

end
-- ==== Proof.Glue0.lean ====
/-
  The first stretch of host operations: the edge lists and the normalised edge weights.

  Before the first dense layer the host builds, from the 2×1600000 array of edges and the 1600000 edge weights,
    · the sources s and the destinations d of all 1650000 edges: a row of the edge array, with the self loops
      0 … 49999 appended;
    · the weights with a 1 appended for every self loop; the weighted in-degree of every node (a scatter-add of the
      weights at the destinations); its inverse square root where the degree is positive and 0 elsewhere (a select
      that the host has outlined into a function of its own); and the normalised weight
      ν(e) = dis(s(e)) · w(e) · dis(d(e)) of every edge.
  The reference program builds the same three arrays by the same operations on the same arguments, so they are
  stated here as the reference's own stages of the edge array and the weights; nothing is computed. The stretch is
  read in its three parts — up to the select, the select, after the select — each for any contents it starts from.
-/
import proofs.«102505_j36593121362326_1_alg».proof.Proof.Gen.KernelIdeal.Launch
import proofs.«102505_j36593121362326_1_alg».proof.Proof.Gen.ReferenceIdeal.Read
import proofs.«102505_j36593121362326_1_alg».proof.Proof.Glue
import Idealize.ShloMosaic.Lib.StableHlo.Run
import Idealize.ShloMosaic.PureOps.Ideal

set_option maxRecDepth 16384

noncomputable section

namespace Cert.KernelIdeal.Glue

open Cert.KernelIdeal Cert.KernelIdeal.Gen
open Idealize.ShloMosaic Idealize.ShloMosaic.TcCoe Idealize.ShloMosaic.StableHlo Idealize.SL.Sem

variable (U : Valuation τ sig (Elt Ideal))

/-! ## Up to the select -/

/-- The sources of the edges, self loops appended. -/
theorem first_src : StableHlo.after (hostOps0 (F := Ideal)) U (Proc.devRef .tc main_v5)
    = Cert.ReferenceIdeal.Read.val_main_v5 (F := Ideal) (U (Proc.devRef .tc main_arg1)) := by
  after_results_simp
  rfl

/-- The destinations of the edges, self loops appended. -/
theorem first_dst : StableHlo.after (hostOps0 (F := Ideal)) U (Proc.devRef .tc main_v6)
    = Cert.ReferenceIdeal.Read.val_main_v6 (F := Ideal) (U (Proc.devRef .tc main_arg1)) := by
  after_results_simp
  rfl

/-- The weights, a 1 appended for every self loop. -/
theorem first_wts : StableHlo.after (hostOps0 (F := Ideal)) U (Proc.devRef .tc main_v8)
    = Cert.ReferenceIdeal.Read.val_main_v8 (F := Ideal) (U (Proc.devRef .tc main_arg2)) := by
  after_results_simp
  rfl

/-- Where the weighted in-degree is positive. -/
theorem first_pos : StableHlo.after (hostOps0 (F := Ideal)) U (Proc.devRef .tc main_v13)
    = Cert.ReferenceIdeal.Read.val_main_v13 (F := Ideal) (U (Proc.devRef .tc main_arg1)) (U (Proc.devRef .tc main_arg2)) := by
  after_results_simp
  rfl

/-- The inverse square root of the weighted in-degree. -/
theorem first_rsq : StableHlo.after (hostOps0 (F := Ideal)) U (Proc.devRef .tc main_v14)
    = Cert.ReferenceIdeal.Read.val_main_v14 (F := Ideal) (U (Proc.devRef .tc main_arg1)) (U (Proc.devRef .tc main_arg2)) := by
  after_results_simp
  rfl

/-- The zero the select falls back to. -/
theorem first_zero : StableHlo.after (hostOps0 (F := Ideal)) U (Proc.devRef .tc main_cst_2)
    = Cert.ReferenceIdeal.Read.val_main_cst_2 (F := Ideal) := by
  after_results_simp
  rfl

/-! ## The select -/

/-- The outlined select: the inverse square root where the degree is positive, the fallback elsewhere. -/
theorem where_dis : StableHlo.after (hostOps0_1 (F := Ideal)) U (Proc.devRef .tc main_v15)
    = select (U (Proc.devRef .tc main_v13)) (U (Proc.devRef .tc main_v14))
        (broadcastInDim S50000 ![] bcast_S_S50000 (id (U (Proc.devRef .tc main_cst_2)))) := by
  after_results_simp
  rfl

/-- The select writes none of the sources, the destinations and the weights. -/
theorem where_keeps (b : Ref sig .tc) (hb : b = main_v5 ∨ b = main_v6 ∨ b = main_v8) :
    StableHlo.after (hostOps0_1 (F := Ideal)) U (Proc.devRef .tc b) = U (Proc.devRef .tc b) := by
  rcases hb with rfl | rfl | rfl <;>
  · refine StableHlo.after_of_forall_not_mem _ _ (List.forall_iff_forall_mem.mp ?_)
    simp only [hostOps0_1, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)

/-! ## After the select -/

set_option maxHeartbeats 4000000 in
/-- The normalised weights: dis at the wrapped sources, times the weights, times dis at the wrapped destinations. -/
theorem third_norm : StableHlo.after (hostOps0_2 (F := Ideal)) U (Proc.devRef .tc main_v31)
    = mulf (F := Ideal) (s := S1650000) (φ := .f32)
        (mulf (F := Ideal) (s := S1650000) (φ := .f32)
          (Host.gather gather_S50000_S1650000x1_S1650000_n_0_n_n_0_1_1 (U (Proc.devRef .tc main_v15))
            (wrapped (U (Proc.devRef .tc main_v5)))) (U (Proc.devRef .tc main_v8)))
        (Host.gather gather_S50000_S1650000x1_S1650000_n_0_n_n_0_1_1 (U (Proc.devRef .tc main_v15))
            (wrapped (U (Proc.devRef .tc main_v6)))) := by
  after_results_simp
  rfl

/-- The last part writes neither the sources nor the destinations. -/
theorem third_keeps (b : Ref sig .tc) (hb : b = main_v5 ∨ b = main_v6) :
    StableHlo.after (hostOps0_2 (F := Ideal)) U (Proc.devRef .tc b) = U (Proc.devRef .tc b) := by
  rcases hb with rfl | rfl <;>
  · refine StableHlo.after_of_forall_not_mem _ _ (List.forall_iff_forall_mem.mp ?_)
    simp only [hostOps0_2, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)

/-! ## The whole stretch -/

/-- The sources of the edges, self loops appended. -/
theorem stretch0_src :
    StableHlo.after (hostOps0_2 (F := Ideal)) (StableHlo.after (hostOps0_1 (F := Ideal)) (StableHlo.after (hostOps0 (F := Ideal)) U))
        (Proc.devRef .tc main_v5)
      = Cert.ReferenceIdeal.Read.val_main_v5 (F := Ideal) (U (Proc.devRef .tc main_arg1)) := by
  rw [third_keeps _ main_v5 (.inl rfl), where_keeps _ main_v5 (.inl rfl), first_src]

/-- The destinations of the edges, self loops appended. -/
theorem stretch0_dst :
    StableHlo.after (hostOps0_2 (F := Ideal)) (StableHlo.after (hostOps0_1 (F := Ideal)) (StableHlo.after (hostOps0 (F := Ideal)) U))
        (Proc.devRef .tc main_v6)
      = Cert.ReferenceIdeal.Read.val_main_v6 (F := Ideal) (U (Proc.devRef .tc main_arg1)) := by
  rw [third_keeps _ main_v6 (.inr rfl), where_keeps _ main_v6 (.inr (.inl rfl)), first_dst]

/-- The normalised weights of the edges. -/
theorem stretch0_norm :
    StableHlo.after (hostOps0_2 (F := Ideal)) (StableHlo.after (hostOps0_1 (F := Ideal)) (StableHlo.after (hostOps0 (F := Ideal)) U))
        (Proc.devRef .tc main_v31)
      = Cert.ReferenceIdeal.Read.val_main_v31 (F := Ideal) (U (Proc.devRef .tc main_arg1)) (U (Proc.devRef .tc main_arg2)) := by
  rw [third_norm, where_dis, where_keeps _ main_v5 (.inl rfl), where_keeps _ main_v6 (.inr (.inl rfl)),
    where_keeps _ main_v8 (.inr (.inr rfl)), first_src, first_dst, first_wts, first_pos, first_rsq, first_zero]
  rfl

end Cert.KernelIdeal.Glue

end
-- ==== Proof.Net.lean ====
/-
  The network both programs compute, as one function of the nine arguments, on the extended reals.

  With s, d the edges' sources and destinations (self loops appended) and ν their normalised weights — the reference's
  own stages of the edge array and the weights — the network is two graph convolutions and a logistic head:
      h₁  = max (agg (X · W₁) s d ν + b₁, 0)
      h₂  = max (agg (h₁ · W₂) s d ν + b₂, 0)
      out = logistic (h₂ · Wₗ + bₗ),   its 50000×1 column re-laid as a vector of 50000.
-/
import proofs.«102505_j36593121362326_1_alg».proof.Proof.Glue
import proofs.«102505_j36593121362326_1_alg».proof.Proof.Gen.ReferenceIdeal.Read
import proofs.«102505_j36593121362326_1_alg».proof.Proof.LibMatProd
import proofs.«102505_j36593121362326_1_alg».proof.Proof.LibBiasRelu
import proofs.«102505_j36593121362326_1_alg».proof.Proof.LibSigmoidLayer
import proofs.«102505_j36593121362326_1_alg».proof.Proof.LibRowVector

noncomputable section

namespace Cert.KernelIdeal.Glue

open Cert.KernelIdeal Cert.KernelIdeal.Gen
open Idealize.ShloMosaic Idealize.ShloMosaic.TcCoe Idealize.SL.Sem
open Cert.Lib.MatProd Cert.Lib.BiasRelu Cert.Lib.SigmoidLayer Cert.Lib.RowVector

/-- One graph convolution with its bias and clamp: max (agg (H · W) s d ν + b, 0). -/
def conv {k : Nat} (H : (⟨2, ![50000, k]⟩ : Shape).Idx → EReal) (W : (⟨2, ![k, 64]⟩ : Shape).Idx → EReal)
    (b : (⟨1, ![64]⟩ : Shape).Idx → EReal) (s d : (⟨S1650000, .i32⟩ : BufTy).Contents (Elt Ideal))
    (ν : (⟨S1650000, .f32⟩ : BufTy).Contents (Elt Ideal)) : (⟨2, ![50000, 64]⟩ : Shape).Idx → EReal :=
  biasRelu (agg (matProd H W) s d ν) (asRow b)

/-- The network's result from the nine arguments. -/
def net (X : (⟨2, ![50000, 128]⟩ : Shape).Idx → EReal) (e : (⟨S2x1600000, .i32⟩ : BufTy).Contents (Elt Ideal))
    (w : (⟨S1600000, .f32⟩ : BufTy).Contents (Elt Ideal))
    (W₁ : (⟨2, ![128, 64]⟩ : Shape).Idx → EReal) (b₁ : (⟨1, ![64]⟩ : Shape).Idx → EReal)
    (W₂ : (⟨2, ![64, 64]⟩ : Shape).Idx → EReal) (b₂ : (⟨1, ![64]⟩ : Shape).Idx → EReal)
    (Wl : (⟨2, ![64, 1]⟩ : Shape).Idx → EReal) (bl : (⟨1, ![1]⟩ : Shape).Idx → EReal) :
    (⟨1, ![50000]⟩ : Shape).Idx → EReal :=
  shapeCast S50000
    (sigLayer
      (conv (conv X W₁ b₁ (Cert.ReferenceIdeal.Read.val_main_v5 (F := Ideal) e) (Cert.ReferenceIdeal.Read.val_main_v6 (F := Ideal) e)
          (Cert.ReferenceIdeal.Read.val_main_v31 (F := Ideal) e w))
        W₂ b₂ (Cert.ReferenceIdeal.Read.val_main_v5 (F := Ideal) e) (Cert.ReferenceIdeal.Read.val_main_v6 (F := Ideal) e)
        (Cert.ReferenceIdeal.Read.val_main_v31 (F := Ideal) e w))
      Wl (asRow bl))
    shapeCasts_S50000x1_S50000

end Cert.KernelIdeal.Glue

end
-- ==== Proof.Fold.lean ====
/-
  The idealized kernel's result, read back through @main.

  @main alternates stretches of host operations with the five pipelined regions. Going backwards from the buffer it
  returns: the last stretch re-lays the output layer's column as a vector; the output layer's region leaves the
  logistic layer of the second hidden layer, the output weights and the bias laid as a 1×1 array; the second hidden
  layer is the bias-and-clamp that region 3 leaves of the second aggregate and the second bias row; the aggregate is
  what the stretch before it makes of the second product, which region 2 leaves of the first hidden layer and the
  second weights; and the same once more down to the arguments. A buffer that a stage does not write is found by the
  next stage as the previous one left it: the arguments all the way from the launch, the edges' sources, destinations
  and normalised weights from the first stretch on.
-/
import proofs.«102505_j36593121362326_1_alg».proof.Proof.Gen.KernelIdeal.Frame
import proofs.«102505_j36593121362326_1_alg».proof.Proof.Region0
import proofs.«102505_j36593121362326_1_alg».proof.Proof.Region1
import proofs.«102505_j36593121362326_1_alg».proof.Proof.Region2
import proofs.«102505_j36593121362326_1_alg».proof.Proof.Region3
import proofs.«102505_j36593121362326_1_alg».proof.Proof.Region4
import proofs.«102505_j36593121362326_1_alg».proof.Proof.Glue
import proofs.«102505_j36593121362326_1_alg».proof.Proof.Glue0
import proofs.«102505_j36593121362326_1_alg».proof.Proof.Net

set_option maxRecDepth 16384

noncomputable section

namespace Cert.KernelIdeal.Fold

open Cert.KernelIdeal Cert.KernelIdeal.Gen Cert.KernelIdeal.Layers Cert.KernelIdeal.Glue
open Idealize.ShloMosaic Idealize.ShloMosaic.TcCoe Idealize.ShloMosaic.ValueIdx Idealize.SL.Sem
open Cert.Lib.MatProd Cert.Lib.BiasRelu Cert.Lib.SigmoidLayer Cert.Lib.RowVector

variable (m : (ℓ : Loc nD τ sig) → Buf (Elt Ideal) ℓ) (ρ : Dev nD → PrngReg) (c : Dev nD)

/-! ## Buffers a stage leaves alone -/

/-- No host operation before the first product writes the node features. -/
theorem keep_arg0_0_3 : W3 m ρ c (Proc.devRef .tc main_arg0) = m ((c : Thread nD τ).loc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := StableHlo.after_of_forall_not_mem (b := Proc.devRef .tc main_arg0) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

/-- … nor the first layer's weights. -/
theorem keep_arg3_0_3 : W3 m ρ c (Proc.devRef .tc main_arg3) = m ((c : Thread nD τ).loc main_arg3) :=
  calc W3 m ρ c (Proc.devRef .tc main_arg3)
    _ = W2 m ρ c (Proc.devRef .tc main_arg3) := StableHlo.after_of_forall_not_mem (b := Proc.devRef .tc main_arg3) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := StableHlo.after_of_forall_not_mem (b := Proc.devRef .tc main_arg3) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-- The first bias vector is as launched when the stretch after the first product reads it. -/
theorem keep_arg4_0_4 : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := StableHlo.after_of_forall_not_mem (b := Proc.devRef .tc main_arg4) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

/-- The second layer's weights are as launched when the second product reads them. -/
theorem keep_arg5_0_6 : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := StableHlo.after_of_forall_not_mem (b := Proc.devRef .tc main_arg5) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

/-- The second bias vector is as launched when the stretch after the second product reads it. -/
theorem keep_arg6_0_7 : W7 m ρ c (Proc.devRef .tc main_arg6) = m ((c : Thread nD τ).loc main_arg6) :=
  calc W7 m ρ c (Proc.devRef .tc main_arg6)
    _ = W6 m ρ c (Proc.devRef .tc main_arg6) := W7_of_ne m ρ c main_arg6 (by decide)
    _ = W5 m ρ c (Proc.devRef .tc main_arg6) := W6_of_ne m ρ c main_arg6 (by decide)
    _ = W4 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := StableHlo.after_of_forall_not_mem (b := Proc.devRef .tc main_arg6) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

/-- The output bias is as launched when it is laid as a 1×1 array. -/
theorem keep_arg8_0_9 : W9 m ρ c (Proc.devRef .tc main_arg8) = m ((c : Thread nD τ).loc main_arg8) :=
  calc W9 m ρ c (Proc.devRef .tc main_arg8)
    _ = W8 m ρ c (Proc.devRef .tc main_arg8) := W9_of_ne m ρ c main_arg8 (by decide)
    _ = W7 m ρ c (Proc.devRef .tc main_arg8) := StableHlo.after_of_forall_not_mem (b := Proc.devRef .tc main_arg8) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg8) := W7_of_ne m ρ c main_arg8 (by decide)
    _ = W5 m ρ c (Proc.devRef .tc main_arg8) := W6_of_ne m ρ c main_arg8 (by decide)
    _ = W4 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg8) := StableHlo.after_of_forall_not_mem (b := Proc.devRef .tc main_arg8) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

/-- The output weights are as launched when the output layer reads them. -/
theorem keep_arg7_0_10 : W10 m ρ c (Proc.devRef .tc main_arg7) = m ((c : Thread nD τ).loc main_arg7) :=
  calc W10 m ρ c (Proc.devRef .tc main_arg7)
    _ = W9 m ρ c (Proc.devRef .tc main_arg7) := StableHlo.after_of_forall_not_mem (b := Proc.devRef .tc main_arg7) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg7) := W9_of_ne m ρ c main_arg7 (by decide)
    _ = W7 m ρ c (Proc.devRef .tc main_arg7) := StableHlo.after_of_forall_not_mem (b := Proc.devRef .tc main_arg7) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg7) := W7_of_ne m ρ c main_arg7 (by decide)
    _ = W5 m ρ c (Proc.devRef .tc main_arg7) := W6_of_ne m ρ c main_arg7 (by decide)
    _ = W4 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg7) := StableHlo.after_of_forall_not_mem (b := Proc.devRef .tc main_arg7) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

/-- The first product leaves the edges' sources alone. -/
theorem keep_v5_3_4 : W4 m ρ c (Proc.devRef .tc main_v5) = W3 m ρ c (Proc.devRef .tc main_v5) :=
  calc W4 m ρ c (Proc.devRef .tc main_v5)
    _ = W3 m ρ c (Proc.devRef .tc main_v5) := W4_of_ne m ρ c main_v5 (by decide)

/-- … and their destinations, -/
theorem keep_v6_3_4 : W4 m ρ c (Proc.devRef .tc main_v6) = W3 m ρ c (Proc.devRef .tc main_v6) :=
  calc W4 m ρ c (Proc.devRef .tc main_v6)
    _ = W3 m ρ c (Proc.devRef .tc main_v6) := W4_of_ne m ρ c main_v6 (by decide)

/-- … and their normalised weights. -/
theorem keep_v31_3_4 : W4 m ρ c (Proc.devRef .tc main_v31) = W3 m ρ c (Proc.devRef .tc main_v31) :=
  calc W4 m ρ c (Proc.devRef .tc main_v31)
    _ = W3 m ρ c (Proc.devRef .tc main_v31) := W4_of_ne m ρ c main_v31 (by decide)

/-- Nothing between the first stretch and the second aggregation writes the edges' sources, -/
theorem keep_v5_3_7 : W7 m ρ c (Proc.devRef .tc main_v5) = W3 m ρ c (Proc.devRef .tc main_v5) :=
  calc W7 m ρ c (Proc.devRef .tc main_v5)
    _ = W6 m ρ c (Proc.devRef .tc main_v5) := W7_of_ne m ρ c main_v5 (by decide)
    _ = W5 m ρ c (Proc.devRef .tc main_v5) := W6_of_ne m ρ c main_v5 (by decide)
    _ = W4 m ρ c (Proc.devRef .tc main_v5) := StableHlo.after_of_forall_not_mem (b := Proc.devRef .tc main_v5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v5) := W4_of_ne m ρ c main_v5 (by decide)

/-- … their destinations, -/
theorem keep_v6_3_7 : W7 m ρ c (Proc.devRef .tc main_v6) = W3 m ρ c (Proc.devRef .tc main_v6) :=
  calc W7 m ρ c (Proc.devRef .tc main_v6)
    _ = W6 m ρ c (Proc.devRef .tc main_v6) := W7_of_ne m ρ c main_v6 (by decide)
    _ = W5 m ρ c (Proc.devRef .tc main_v6) := W6_of_ne m ρ c main_v6 (by decide)
    _ = W4 m ρ c (Proc.devRef .tc main_v6) := StableHlo.after_of_forall_not_mem (b := Proc.devRef .tc main_v6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v6) := W4_of_ne m ρ c main_v6 (by decide)

/-- … or their normalised weights. -/
theorem keep_v31_3_7 : W7 m ρ c (Proc.devRef .tc main_v31) = W3 m ρ c (Proc.devRef .tc main_v31) :=
  calc W7 m ρ c (Proc.devRef .tc main_v31)
    _ = W6 m ρ c (Proc.devRef .tc main_v31) := W7_of_ne m ρ c main_v31 (by decide)
    _ = W5 m ρ c (Proc.devRef .tc main_v31) := W6_of_ne m ρ c main_v31 (by decide)
    _ = W4 m ρ c (Proc.devRef .tc main_v31) := StableHlo.after_of_forall_not_mem (b := Proc.devRef .tc main_v31) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v31) := W4_of_ne m ρ c main_v31 (by decide)

/-- Laying the output bias as a 1×1 array leaves the second hidden layer alone. -/
theorem keep_v63_9_10 : W10 m ρ c (Proc.devRef .tc main_v63) = W9 m ρ c (Proc.devRef .tc main_v63) :=
  calc W10 m ρ c (Proc.devRef .tc main_v63)
    _ = W9 m ρ c (Proc.devRef .tc main_v63) := StableHlo.after_of_forall_not_mem (b := Proc.devRef .tc main_v63) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-! ## The stages, from the arguments up -/

/-- The first stretch leaves the edges' sources, -/
theorem src3 : W3 m ρ c (Proc.devRef .tc main_v5) = Cert.ReferenceIdeal.Read.val_main_v5 (F := Ideal) (m ((c : Thread nD τ).loc main_arg1)) :=
  stretch0_src (W0 m ρ c)
/-- … their destinations, -/
theorem dst3 : W3 m ρ c (Proc.devRef .tc main_v6) = Cert.ReferenceIdeal.Read.val_main_v6 (F := Ideal) (m ((c : Thread nD τ).loc main_arg1)) :=
  stretch0_dst (W0 m ρ c)
/-- … and their normalised weights. -/
theorem nrm3 : W3 m ρ c (Proc.devRef .tc main_v31) = Cert.ReferenceIdeal.Read.val_main_v31 (F := Ideal) (m ((c : Thread nD τ).loc main_arg1)) (m ((c : Thread nD τ).loc main_arg2)) :=
  stretch0_norm (W0 m ρ c)

/-- Region 0 leaves X · W₁. -/
theorem prod1 : W4 m ρ c (Proc.devRef .tc main_v32)
    = matProd (m ((c : Thread nD τ).loc main_arg0)) (m ((c : Thread nD τ).loc main_arg3)) := by
  refine (W4_arr m ρ c 2).trans ((final0 (V3 m ρ) c).trans ?_)
  show matProd (W3 m ρ c (Proc.devRef .tc main_arg0)) (W3 m ρ c (Proc.devRef .tc main_arg3)) = _
  rw [keep_arg0_0_3, keep_arg3_0_3]

/-- The stretch after it leaves the first aggregate -/
theorem agg1 : W5 m ρ c (Proc.devRef .tc main_v45)
    = agg (matProd (m ((c : Thread nD τ).loc main_arg0)) (m ((c : Thread nD τ).loc main_arg3)))
        (Cert.ReferenceIdeal.Read.val_main_v5 (F := Ideal) (m ((c : Thread nD τ).loc main_arg1))) (Cert.ReferenceIdeal.Read.val_main_v6 (F := Ideal) (m ((c : Thread nD τ).loc main_arg1)))
        (Cert.ReferenceIdeal.Read.val_main_v31 (F := Ideal) (m ((c : Thread nD τ).loc main_arg1)) (m ((c : Thread nD τ).loc main_arg2))) := by
  refine (stretch1_agg (W4 m ρ c)).trans ?_
  rw [prod1, keep_v5_3_4, keep_v6_3_4, keep_v31_3_4, src3, dst3, nrm3]

/-- … and the first bias vector as a row. -/
theorem row1 : W5 m ρ c (Proc.devRef .tc main_v46) = asRow (m ((c : Thread nD τ).loc main_arg4)) := by
  refine (stretch1_row (W4 m ρ c)).trans ?_
  rw [keep_arg4_0_4]
  exact shapeCast_eq_asRow _ _

/-- Region 1 leaves the first hidden layer. -/
theorem hid1 : W6 m ρ c (Proc.devRef .tc main_v47)
    = conv (m ((c : Thread nD τ).loc main_arg0)) (m ((c : Thread nD τ).loc main_arg3)) (m ((c : Thread nD τ).loc main_arg4))
        (Cert.ReferenceIdeal.Read.val_main_v5 (F := Ideal) (m ((c : Thread nD τ).loc main_arg1))) (Cert.ReferenceIdeal.Read.val_main_v6 (F := Ideal) (m ((c : Thread nD τ).loc main_arg1)))
        (Cert.ReferenceIdeal.Read.val_main_v31 (F := Ideal) (m ((c : Thread nD τ).loc main_arg1)) (m ((c : Thread nD τ).loc main_arg2))) := by
  refine (W6_arr m ρ c 2).trans ((final1 (V5 m ρ) c).trans ?_)
  show biasRelu (W5 m ρ c (Proc.devRef .tc main_v45)) (W5 m ρ c (Proc.devRef .tc main_v46)) = _
  rw [agg1, row1]
  rfl

/-- Region 2 leaves h₁ · W₂. -/
theorem prod2 : W7 m ρ c (Proc.devRef .tc main_v48)
    = matProd (conv (m ((c : Thread nD τ).loc main_arg0)) (m ((c : Thread nD τ).loc main_arg3)) (m ((c : Thread nD τ).loc main_arg4))
        (Cert.ReferenceIdeal.Read.val_main_v5 (F := Ideal) (m ((c : Thread nD τ).loc main_arg1))) (Cert.ReferenceIdeal.Read.val_main_v6 (F := Ideal) (m ((c : Thread nD τ).loc main_arg1)))
        (Cert.ReferenceIdeal.Read.val_main_v31 (F := Ideal) (m ((c : Thread nD τ).loc main_arg1)) (m ((c : Thread nD τ).loc main_arg2)))) (m ((c : Thread nD τ).loc main_arg5)) := by
  refine (W7_arr m ρ c 2).trans ((final2 (V6 m ρ) c).trans ?_)
  show matProd (W6 m ρ c (Proc.devRef .tc main_v47)) (W6 m ρ c (Proc.devRef .tc main_arg5)) = _
  rw [hid1, keep_arg5_0_6]

/-- The stretch after it leaves the second aggregate -/
theorem agg2 : W8 m ρ c (Proc.devRef .tc main_v61)
    = agg (matProd (conv (m ((c : Thread nD τ).loc main_arg0)) (m ((c : Thread nD τ).loc main_arg3)) (m ((c : Thread nD τ).loc main_arg4))
          (Cert.ReferenceIdeal.Read.val_main_v5 (F := Ideal) (m ((c : Thread nD τ).loc main_arg1))) (Cert.ReferenceIdeal.Read.val_main_v6 (F := Ideal) (m ((c : Thread nD τ).loc main_arg1)))
          (Cert.ReferenceIdeal.Read.val_main_v31 (F := Ideal) (m ((c : Thread nD τ).loc main_arg1)) (m ((c : Thread nD τ).loc main_arg2)))) (m ((c : Thread nD τ).loc main_arg5)))
        (Cert.ReferenceIdeal.Read.val_main_v5 (F := Ideal) (m ((c : Thread nD τ).loc main_arg1))) (Cert.ReferenceIdeal.Read.val_main_v6 (F := Ideal) (m ((c : Thread nD τ).loc main_arg1)))
        (Cert.ReferenceIdeal.Read.val_main_v31 (F := Ideal) (m ((c : Thread nD τ).loc main_arg1)) (m ((c : Thread nD τ).loc main_arg2))) := by
  refine (stretch3_agg (W7 m ρ c)).trans ?_
  rw [prod2, keep_v5_3_7, keep_v6_3_7, keep_v31_3_7, src3, dst3, nrm3]

/-- … and the second bias vector as a row. -/
theorem row2 : W8 m ρ c (Proc.devRef .tc main_v62) = asRow (m ((c : Thread nD τ).loc main_arg6)) := by
  refine (stretch3_row (W7 m ρ c)).trans ?_
  rw [keep_arg6_0_7]
  exact shapeCast_eq_asRow _ _

/-- Region 3 leaves the second hidden layer. -/
theorem hid2 : W9 m ρ c (Proc.devRef .tc main_v63)
    = conv (conv (m ((c : Thread nD τ).loc main_arg0)) (m ((c : Thread nD τ).loc main_arg3)) (m ((c : Thread nD τ).loc main_arg4))
          (Cert.ReferenceIdeal.Read.val_main_v5 (F := Ideal) (m ((c : Thread nD τ).loc main_arg1))) (Cert.ReferenceIdeal.Read.val_main_v6 (F := Ideal) (m ((c : Thread nD τ).loc main_arg1)))
          (Cert.ReferenceIdeal.Read.val_main_v31 (F := Ideal) (m ((c : Thread nD τ).loc main_arg1)) (m ((c : Thread nD τ).loc main_arg2))))
        (m ((c : Thread nD τ).loc main_arg5)) (m ((c : Thread nD τ).loc main_arg6))
        (Cert.ReferenceIdeal.Read.val_main_v5 (F := Ideal) (m ((c : Thread nD τ).loc main_arg1))) (Cert.ReferenceIdeal.Read.val_main_v6 (F := Ideal) (m ((c : Thread nD τ).loc main_arg1)))
        (Cert.ReferenceIdeal.Read.val_main_v31 (F := Ideal) (m ((c : Thread nD τ).loc main_arg1)) (m ((c : Thread nD τ).loc main_arg2))) := by
  refine (W9_arr m ρ c 2).trans ((final3 (V8 m ρ) c).trans ?_)
  show biasRelu (W8 m ρ c (Proc.devRef .tc main_v61)) (W8 m ρ c (Proc.devRef .tc main_v62)) = _
  rw [agg2, row2]
  rfl

/-- The output bias laid as a 1×1 array is the bias as a row. -/
theorem row3 : W10 m ρ c (Proc.devRef .tc main_v64) = asRow (m ((c : Thread nD τ).loc main_arg8)) := by
  refine (stretch4_row (W9 m ρ c)).trans ?_
  rw [keep_arg8_0_9]
  exact shapeCast_eq_asRow _ _

/-- Region 4 leaves the logistic layer of the second hidden layer. -/
theorem out4 : W11 m ρ c (Proc.devRef .tc main_v65)
    = sigLayer (conv (conv (m ((c : Thread nD τ).loc main_arg0)) (m ((c : Thread nD τ).loc main_arg3)) (m ((c : Thread nD τ).loc main_arg4))
          (Cert.ReferenceIdeal.Read.val_main_v5 (F := Ideal) (m ((c : Thread nD τ).loc main_arg1))) (Cert.ReferenceIdeal.Read.val_main_v6 (F := Ideal) (m ((c : Thread nD τ).loc main_arg1)))
          (Cert.ReferenceIdeal.Read.val_main_v31 (F := Ideal) (m ((c : Thread nD τ).loc main_arg1)) (m ((c : Thread nD τ).loc main_arg2))))
        (m ((c : Thread nD τ).loc main_arg5)) (m ((c : Thread nD τ).loc main_arg6))
        (Cert.ReferenceIdeal.Read.val_main_v5 (F := Ideal) (m ((c : Thread nD τ).loc main_arg1))) (Cert.ReferenceIdeal.Read.val_main_v6 (F := Ideal) (m ((c : Thread nD τ).loc main_arg1)))
        (Cert.ReferenceIdeal.Read.val_main_v31 (F := Ideal) (m ((c : Thread nD τ).loc main_arg1)) (m ((c : Thread nD τ).loc main_arg2))))
      (m ((c : Thread nD τ).loc main_arg7)) (asRow (m ((c : Thread nD τ).loc main_arg8))) := by
  refine (W11_arr m ρ c 3).trans ((final4 (V10 m ρ) c).trans ?_)
  show sigLayer (W10 m ρ c (Proc.devRef .tc main_v63)) (W10 m ρ c (Proc.devRef .tc main_arg7)) (W10 m ρ c (Proc.devRef .tc main_v64)) = _
  rw [keep_v63_9_10, hid2, keep_arg7_0_10, row3]

/-- THE RESULT: the buffer @main returns ends at the network of the nine arguments. -/
theorem result : W12 m ρ c (Proc.devRef .tc main_v66)
    = net (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) := by
  refine (stretch5_out (W11 m ρ c)).trans ?_
  rw [out4]
  rfl

end Cert.KernelIdeal.Fold

end
-- ==== Proof.RefSide.lean ====
/-
  The reference's result is the same network of the nine arguments.

  The reference spells each graph convolution as the host's product, the same gather / scale / scatter-add along the
  edges, the bias vector broadcast into a row and down the rows, and a maximum with a broadcast zero; it rebuilds the
  edges' sources, destinations and normalised weights before the second convolution by the same operations on the
  same arguments, so they are the same arrays; and it spells the logistic function as one over one plus the
  exponential of the negated argument. On the extended reals the host's product is the sum over the contracted
  index, and that expansion is the logistic function, so stage by stage the reference's terms are the network's.
-/
import proofs.«102505_j36593121362326_1_alg».proof.Proof.Gen.ReferenceIdeal.Read
import proofs.«102505_j36593121362326_1_alg».proof.Proof.Net

set_option maxRecDepth 16384

noncomputable section

namespace Cert.ReferenceIdeal.RefValue

open Cert.ReferenceIdeal Cert.ReferenceIdeal.Read
open Idealize.ShloMosaic Idealize.ShloMosaic.TcCoe Idealize.SL.Sem
open Cert.Lib.MatProd Cert.Lib.BiasRelu Cert.Lib.SigmoidLayer Cert.Lib.RowVector
open Cert.KernelIdeal.Glue (agg conv net)

variable (x0 : (⟨S50000x128, .f32⟩ : BufTy).Contents (Elt Ideal)) (x1 : (⟨S2x1600000, .i32⟩ : BufTy).Contents (Elt Ideal))
  (x2 : (⟨S1600000, .f32⟩ : BufTy).Contents (Elt Ideal)) (x3 : (⟨S128x64, .f32⟩ : BufTy).Contents (Elt Ideal))
  (x4 : (⟨S64, .f32⟩ : BufTy).Contents (Elt Ideal)) (x5 : (⟨S64x64, .f32⟩ : BufTy).Contents (Elt Ideal))
  (x6 : (⟨S64, .f32⟩ : BufTy).Contents (Elt Ideal)) (x7 : (⟨S64x1, .f32⟩ : BufTy).Contents (Elt Ideal))
  (x8 : (⟨S1, .f32⟩ : BufTy).Contents (Elt Ideal))

/-- Before the second convolution the sources are built again: the same array. -/
theorem src_again : val_main_v51 (F := Ideal) x1 = val_main_v5 (F := Ideal) x1 := rfl
/-- … and the destinations, -/
theorem dst_again : val_main_v52 (F := Ideal) x1 = val_main_v6 (F := Ideal) x1 := rfl
/-- … and the normalised weights. -/
theorem nrm_again : val_main_v77 (F := Ideal) x1 x2 = val_main_v31 (F := Ideal) x1 x2 := rfl

/-- The first aggregation is the network's, of the first product. -/
theorem agg_first : val_main_v45 (F := Ideal) x0 x1 x2 x3
    = agg (val_main_v32 (F := Ideal) x0 x3) (val_main_v5 (F := Ideal) x1) (val_main_v6 (F := Ideal) x1) (val_main_v31 (F := Ideal) x1 x2) := rfl

/-- The first product is the matrix product. -/
theorem prod_first : val_main_v32 (F := Ideal) x0 x3 = matProd x0 x3 :=
  dotGeneral_eq_matProd dot_S50000x128_S128x64_S50000x64_1_0_0_1_n_n rfl rfl rfl rfl rfl rfl none _ x0 x3

/-- The first hidden layer. -/
theorem hidden_first : val_main_v49 (F := Ideal) x0 x1 x2 x3 x4
    = conv x0 x3 x4 (val_main_v5 (F := Ideal) x1) (val_main_v6 (F := Ideal) x1) (val_main_v31 (F := Ideal) x1 x2) := by
  unfold conv
  rw [← prod_first, ← agg_first]
  exact Cert.Lib.BiasRelu.host_eq _ x4 _ _ _

/-- The second aggregation is the network's, of the second product. -/
theorem agg_second : val_main_v91 (F := Ideal) x0 x1 x2 x3 x4 x5
    = agg (val_main_v78 (F := Ideal) x0 x1 x2 x3 x4 x5) (val_main_v5 (F := Ideal) x1) (val_main_v6 (F := Ideal) x1)
        (val_main_v31 (F := Ideal) x1 x2) := by
  rw [← src_again, ← dst_again, ← nrm_again]
  rfl

/-- The second product is the matrix product. -/
theorem prod_second : val_main_v78 (F := Ideal) x0 x1 x2 x3 x4 x5 = matProd (val_main_v49 (F := Ideal) x0 x1 x2 x3 x4) x5 :=
  dotGeneral_eq_matProd dot_S50000x64_S64x64_S50000x64_1_0_0_1_n_n rfl rfl rfl rfl rfl rfl none _ _ x5

/-- The second hidden layer. -/
theorem hidden_second : val_main_v95 (F := Ideal) x0 x1 x2 x3 x4 x5 x6
    = conv (val_main_v49 (F := Ideal) x0 x1 x2 x3 x4) x5 x6 (val_main_v5 (F := Ideal) x1) (val_main_v6 (F := Ideal) x1)
        (val_main_v31 (F := Ideal) x1 x2) := by
  unfold conv
  rw [← prod_second, ← agg_second]
  exact Cert.Lib.BiasRelu.host_eq _ x6 _ _ _

/-- The output layer: the expansion of the logistic function is the logistic layer. -/
theorem out_layer : val_main_v105 (F := Ideal) x0 x1 x2 x3 x4 x5 x6 x7 x8
    = sigLayer (val_main_v95 (F := Ideal) x0 x1 x2 x3 x4 x5 x6) x7 (asRow x8) :=
  host_sig dot_S50000x64_S64x1_S50000x1_1_0_0_1_n_n rfl rfl rfl rfl rfl rfl _ x7 x8 _ _ _

/-- THE REFERENCE'S RESULT is the network of the nine arguments. -/
theorem result : val_main_v106 (F := Ideal) x0 x1 x2 x3 x4 x5 x6 x7 x8 = net x0 x1 x2 x3 x4 x5 x6 x7 x8 := by
  unfold val_main_v106 net
  rw [out_layer, hidden_second, hidden_first]

end Cert.ReferenceIdeal.RefValue

end
-- ==== Proof.lean ====
/-
  A two-layer graph convolution network with a logistic head over 50000 nodes and 1600000 weighted edges: the kernel
  (five pipelined regions — two matrix products, two bias-and-clamp passes and the logistic output layer — among
  the host's gathers and scatter-adds along the edges) against the plain reference, on the extended reals.

  Both programs normalise the edge weights symmetrically by the weighted in-degrees, and compute
      h₁ = max (agg (X · W₁) + b₁, 0),  h₂ = max (agg (h₁ · W₂) + b₂, 0),  out = logistic (h₂ · Wₗ + bₗ)
  where agg sends a feature array to the scatter-add, at the edges' destinations, of its rows gathered at the edges'
  sources and scaled by the normalised weights. The kernel's regions compute the dense parts 2000 rows at a time,
  with the operands of the products read at a narrower float format; on the extended reals that reading is the
  identity, a product into a zero accumulator and the host's product are the same sum, every entry of a dense layer
  depends on one row of its input, and the logistic function is one over one plus the exponential of the negated
  argument. The host's gathers and scatter-adds are the same operations on the same arguments in both programs and
  are never opened. No step needs the inputs to be finite.

    · KernelRun: the kernel's run, with the buffer it returns named by the fold through @main.
    · Region0 … Region4: what each region leaves in its output array, as one function of the arrays it found.
    · Glue, Glue0: the aggregation as one function; what each stretch of host operations leaves.
    · Net: the network as one function of the nine arguments.  Fold: the kernel's result is the network.
    · RefSide: the reference's result is the network.
  The word-level kernel's and the idealized kernel's frames are the generated ones; the reference's frame is its
  generated run with the result dropped; the idealization rewrote nothing, so there is nothing to preserve.
-/
import proofs.«102505_j36593121362326_1_alg».proof.Defs
import proofs.«102505_j36593121362326_1_alg».proof.Proof.Gen.Kernel
import proofs.«102505_j36593121362326_1_alg».proof.Proof.Gen.Kernel.Skeleton
import proofs.«102505_j36593121362326_1_alg».proof.Proof.Gen.Kernel.Launch
import proofs.«102505_j36593121362326_1_alg».proof.Proof.Gen.Kernel.Points
import proofs.«102505_j36593121362326_1_alg».proof.Proof.Gen.Kernel.Frame
import proofs.«102505_j36593121362326_1_alg».proof.Proof.Gen.KernelIdeal
import proofs.«102505_j36593121362326_1_alg».proof.Proof.Gen.KernelIdeal.Skeleton
import proofs.«102505_j36593121362326_1_alg».proof.Proof.Gen.KernelIdeal.Launch
import proofs.«102505_j36593121362326_1_alg».proof.Proof.Gen.KernelIdeal.Points
import proofs.«102505_j36593121362326_1_alg».proof.Proof.Gen.KernelIdeal.Frame
import proofs.«102505_j36593121362326_1_alg».proof.Proof.Gen.ReferenceIdeal
import proofs.«102505_j36593121362326_1_alg».proof.Proof.Gen.Pre_finite_inputs
import proofs.«102505_j36593121362326_1_alg».proof.Proof.Gen.ReferenceIdeal.Run
import proofs.«102505_j36593121362326_1_alg».proof.Proof.Gen.ReferenceIdeal.Read
import proofs.«102505_j36593121362326_1_alg».proof.Proof.KernelRun
import proofs.«102505_j36593121362326_1_alg».proof.Proof.Fold
import proofs.«102505_j36593121362326_1_alg».proof.Proof.RefSide
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the nine arguments both programs end with the network of those arguments in the
    buffer they return. -/
theorem algebraic : Cert.algebraic_KernelIdeal_ReferenceIdeal := by
  intro m ρ m' ρ' _ hagree
  refine ⟨fun c => Cert.KernelIdeal.Glue.net
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.Fold.result m ρ c), (h c).2⟩)
      (Cert.KernelIdeal.RunValue.run (F := Ideal) m ρ)
  · refine (θ_run Cert.ReferenceIdeal.defs _ _).mono (fun r h c => ⟨(h c).1.trans ?_, (h c).2⟩)
      (Cert.ReferenceIdeal.Value.run (F := Ideal) m' ρ')
    obtain ⟨a0, a1, a2, a3, a4, a5, a6, a7, a8⟩ := hagree c
    rw [Cert.ReferenceIdeal.Read.val_main_v106_eq, Cert.ReferenceIdeal.RefValue.result, a0, a1, a2, a3, a4, a5, a6, a7, a8]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
